-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x2 : Shape := ⟨3, ![64, 8192, 2]⟩
abbrev S_ : Shape := ⟨0, ![]⟩

class Facts : Prop where
  bcast_S_S64x8192x2 : S_.BroadcastsInDim S64x8192x2 (![] : Fin 0 → Fin S64x8192x2.rank)
  reducesTo_S64x8192x2_S_d0_1_2 : S64x8192x2.ReducesTo [0, 1, 2] S_
  h_S_ : 0 < S_.numel

variable [Facts]

def fn {F : FTy → Type} [FloatOps F] (main_arg0 : FVec F S64x8192x2 .f32) : IVec S_ 1 :=
  let main_v0 : FVec F S64x8192x2 .f32 := Host.absf main_arg0
  let main_cst : FVec F S_ .f32 := constant S_ .f32 0x7F800000#32
  let main_v1 : FVec F S64x8192x2 .f32 := broadcastInDim S64x8192x2 ![] bcast_S_S64x8192x2 main_cst
  let main_v2 : IVec S64x8192x2 1 := cmpf .olt main_v0 main_v1
  let main_c : IVec S_ 1 := constantI S_ 1 1#1
  let main_v3 : IVec S_ 1 := (fun x v => Host.reduce IntOp.andi x v reducesTo_S64x8192x2_S_d0_1_2 h_S_) main_v2 main_c
  main_v3
-- ==== Kernel.lean ====
abbrev S64x8192x2 : Shape := ⟨3, ![64, 8192, 2]⟩
abbrev S8192x64x2 : Shape := ⟨3, ![8192, 64, 2]⟩
abbrev S8192x128 : Shape := ⟨2, ![8192, 128]⟩
abbrev S1x1 : Shape := ⟨2, ![1, 1]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S64x8192x2, .f32⟩
  | .hbm, ⟨1, _⟩ => ⟨S8192x64x2, .f32⟩
  | .hbm, ⟨2, _⟩ => ⟨S8192x128, .f32⟩
  | .hbm, ⟨3, _⟩ => ⟨S1x1, .f32⟩
  | .hbm, ⟨4, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | _, _ => ⟨S64x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  transposes_S64x8192x2_S8192x64x2_1_0_2 : S64x8192x2.Transposes [1, 0, 2] S8192x64x2
  shapeCasts_S8192x64x2_S8192x128 : S8192x64x2.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192x2 : Shape := ⟨3, ![64, 8192, 2]⟩
abbrev S8192x64x2 : Shape := ⟨3, ![8192, 64, 2]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 41
  | .vmem => 0
  | .smem => 0
  | _ => 0

abbrev bufTy : (tb : Table) → Fin (tcTables nBuf tb) → BufTy
  | .hbm, ⟨0, _⟩ => ⟨S64x8192x2, .f32⟩
  | .hbm, ⟨1, _⟩ => ⟨S8192x64x2, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | _, _ => ⟨S64x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S64x8192x2_S8192x64x2_1_0_2 : S64x8192x2.Transposes [1, 0, 2] S8192x64x2
  shapeCasts_S8192x64x2_S8192x128 : S8192x64x2.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelFrame.Base.lean ====
/-
  The pairwise-separation kernel's region, part 1: what every later module is stated over.

  The program transposes and reshapes its argument into the 8192 x 128 array `main_v1`, runs ONE kernel region on an
  8 x 8 grid whose first two windows are both blocks of that one array (rows 1024 i .. and rows 1024 j .. at the point
  (i, j)) and whose third window is the 1 x 1 result, and reshapes the result to a scalar. Here: the buffers' contents
  when the region is entered, each window's block at a point, the fact that an input window's current staging buffer
  holds that block at every point (fetched there or not), the test "this is the first point" in closed form, and the
  staging memrefs the body is called with.
-/
import proofs.«180643_j42288247997088_1_alg».proof.Proof.Gen.Kernel.Launch
import proofs.«180643_j42288247997088_1_alg».proof.Proof.Gen.Kernel.Skeleton
import proofs.«180643_j42288247997088_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s unscoped buffers at launch. -/
abbrev W0 (c : Dev nD) : Valuation τ sig (Elt F) := fun b => m (c, b)
/-- After the transpose and the reshape that precede the region. -/
abbrev W1 (c : Dev nD) : Valuation τ sig (Elt F) := StableHlo.after hostOps0 (W0 m c)
/-- The same, by TensorCore reference: what the region finds in each buffer. -/
abbrev V (c : Dev nD) (b : Ref sig .tc) : Buf (Elt F) ((c : Thread nD τ).loc b) := W1 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window (rows 1024 i ..): its current staging buffer holds its block at every point, for any proof data
    whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window (rows 1024 j ..): likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one branch: both grid coordinates are zero (the scalar chain of the printed condition). -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else: decided over the 64 points. -/
theorem isFirst_iff : ∀ t : Fin cfg0.N, isFirst (grid0.coords t) ↔ t.val % 64 = 0 :=
  (by decide +kernel : ∀ t : Fin grid0.N, isFirst (grid0.coords t) ↔ t.val % 64 = 0)

/-! ## The staging memrefs the body is called with -/

/-- One staging buffer of the result window, through which its contents are stated. -/
abbrev VO : View sig .tc .vmem S1x1 .f32 := (Memref.whole cc0_stg2_0 : Memref sig .tc .vmem S1x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

end Cert.Kernel.Hand

end
-- ==== Proof.KernelFrame.RunA.lean ====
/-
  The kernel body run whole in the case "first point": the accumulator is set to zero, read back, and the tile's total added to it.
  The two input buffers are only read; the pieces the result buffer ends with are the witness the run finds.
-/
import proofs.«180643_j42288247997088_1_alg».proof.Proof.KernelFrame.Base

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body's stores leave in the result's staging memref in this case, with the proof that from whole
    staging memrefs — the inputs' at their contents, the result's at anything — the body runs to the continuation
    with the inputs' as they were and the result's buffer with those pieces written. -/
noncomputable def kernelRunA (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole) (hc : isFirst i)
    (x0 x1 : Vec F S1024x128 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__pairsep_kernel i arg2 harg2 arg3 harg3 arg4 harg4) K } := by
  refine ⟨?_, fun E K => ?run⟩
  case run =>
    simp only [cc0__pairsep_kernel_eq_skeleton]; unfold cc0__pairsep_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KernelFrame.RunB.lean ====
/-
  The kernel body run whole in the case "not the first point": the accumulator is read as the point before left it and the tile's total added to it.
  The two input buffers are only read; the pieces the result buffer ends with are the witness the run finds.
-/
import proofs.«180643_j42288247997088_1_alg».proof.Proof.KernelFrame.RunA

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body's stores leave in the result's staging memref in this case, with the proof that from whole
    staging memrefs — the inputs' at their contents, the result's at what the point before left — the body runs to the continuation
    with the inputs' as they were and the result's buffer with those pieces written. -/
noncomputable def kernelRunB (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__pairsep_kernel i arg2 harg2 arg3 harg3 arg4 harg4) K } := by
  refine ⟨?_, fun E K => ?run⟩
  case run =>
    simp only [cc0__pairsep_kernel_eq_skeleton]; unfold cc0__pairsep_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KernelFrame.Data.lean ====
/-
  The pairwise-separation kernel's region, part 3: what the result's staging buffer holds after each of the 64 points,
  the pipeline's proof data, and the body obligation.

  The result window is the same 1 x 1 block at every point and is written back only after the last one, so its staging
  buffer is an ACCUMULATOR: the first point's run leaves in it what that run's stores leave over anything, every later
  point's run what its stores leave over what the point before left. The two input windows are blocks of ONE array; the
  proof data hold that array's left half-share for the first and its right half-share for the second (both only read it).
-/
import proofs.«180643_j42288247997088_1_alg».proof.Proof.KernelFrame.RunB

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces for the result tile its 1 x 1 block, so they cover it. -/
theorem coverA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : isFirst i)
    (x0 x1 : Vec F S1024x128 .f32) (y : S1x1.Idx) :
    ∃ pc ∈ (kernelRunA c i arg2 harg2 arg3 harg3 arg4 harg4 hc x0 x1).1, y ∈ pc.1.set :=
  View.cover_of_tiledL (kernelRunA c i arg2 harg2 arg3 harg3 arg4 harg4 hc x0 x1).1 S1x1.size (by sl_kernel_rfl) y

/-- What the first point leaves in the result's staging buffer: its pieces read back over anything. -/
def outA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : isFirst i)
    (x0 x1 : Vec F S1024x128 .f32) : Vec F S1x1 .f32 :=
  VO.read (Elt F) (VO.writes (Elt F) VO.junk (kernelRunA c i arg2 harg2 arg3 harg3 arg4 harg4 hc x0 x1).1)

/-- A later point's pieces for the result tile its block likewise. -/
theorem coverB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) (y : S1x1.Idx) :
    ∃ pc ∈ (kernelRunB c i arg2 harg2 arg3 harg3 arg4 harg4 hc x0 x1 xo).1, y ∈ pc.1.set :=
  View.cover_of_tiledL (kernelRunB c i arg2 harg2 arg3 harg3 arg4 harg4 hc x0 x1 xo).1 S1x1.size (by sl_kernel_rfl) y

/-- What a later point leaves there, given what the point before left (`xo`). -/
def outB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) : Vec F S1x1 .f32 :=
  VO.read (Elt F) (VO.writes (Elt F) VO.junk (kernelRunB c i arg2 harg2 arg3 harg3 arg4 harg4 hc x0 x1 xo).1)

/-! ## The accumulator, point by point -/

/-- What the result's staging buffer holds after the body at point number `n`: the first point's run on the point's
    input blocks, or a later point's run on its input blocks over what this gives at `n - 1`. -/
def outsAt (c : Dev nD) : (n : ℕ) → n < cfg0.N → Vec F S1x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) ((isFirst_iff ⟨0, hn⟩).mpr (Nat.zero_mod _)) (iblk m c 0 ⟨0, hn⟩) (iblk m c 1 ⟨0, hn⟩)
  | n + 1, hn =>
    if h0 : (n + 1) % 64 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((isFirst_iff ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((isFirst_iff ⟨n + 1, hn⟩).mp h)) (iblk m c 0 ⟨n + 1, hn⟩) (iblk m c 1 ⟨n + 1, hn⟩) (outsAt c n (Nat.lt_of_succ_lt hn))

theorem outsAt_first (c : Dev nD) (t : Fin cfg0.N) (h0 : t.val % 64 = 0) :
    outsAt m c t.val t.isLt = outA c (grid0.coords t) (ms0 t) (hs0 t) (ms1 t) (hs1 t) (ms2 t) (hs2 t) ((isFirst_iff t).mpr h0) (iblk m c 0 t) (iblk m c 1 t) := by
  obtain ⟨n, hn⟩ := t
  cases n with
  | zero => exact rfl
  | succ n => exact (dif_pos h0).trans rfl

theorem outsAt_later (c : Dev nD) (t : Fin cfg0.N) (h0 : ¬t.val % 64 = 0) :
    outsAt m c t.val t.isLt = outB c (grid0.coords t) (ms0 t) (hs0 t) (ms1 t) (hs1 t) (ms2 t) (hs2 t) (fun h => h0 ((isFirst_iff t).mp h)) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the result's at `outsAt`; the invariant the scoped rest and the generator
    register; nothing owed. The array the two input windows share is held in halves: the left half-share by the
    row-block window, the right half-share by the column-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
/-- At a later point the result's staging buffer holds what the body left at the point before: it is written back only
    after the last point. -/
theorem before_2_later (c : Dev nD) (t : Fin cfg0.N) (h0 : ¬t.val % 64 = 0) (d) :
    (dats m 0 c).before 2 t d = (outsAt m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the closed form says whether the point is the first;
    at a later point the result's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 64 := lt_of_lt_of_eq t.isLt (show cfg0.N = 64 from N_0)
  by_cases h0 : t.val % 64 = 0
  · rw [outsAt_first m c t h0]
    unfold outA
    iintro ⟨HΦ, Ho, ⟨%d0, H0⟩, ⟨%d1, H1⟩, ⟨%d2, H2⟩⟩
    iapply ((kernelRunA c (grid0.coords t) _ _ _ _ _ _ ((isFirst_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _)
  · rw [outsAt_later m c t h0]
    simp only [before_2_later m c t h0]
    unfold outB
    iintro ⟨HΦ, Ho, ⟨%d0, H0⟩, ⟨%d1, H1⟩, ⟨%d2, H2⟩⟩
    iapply ((kernelRunB c (grid0.coords t) _ _ _ _ _ _ (fun h => h0 ((isFirst_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelFrame.Share.lean ====
/-
  The pairwise-separation kernel's region, part 4: the one array two windows read.

  The row-block window and the column-block window are both windows of the array `main_v1`. Entering the region, the
  core's full share of that array is dealt in halves - the left half to the first window, the right half to the second
  (both only read it) - while the 1 x 1 result's array goes whole to the third window; leaving it, the two halves are put
  together again. Between, the buffers that are no window's array ride along unchanged.
-/
import proofs.«180643_j42288247997088_1_alg».proof.Proof.KernelFrame.Data
import Idealize.ShloMosaic.Lib.Pipeline.Regions

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-- The buffers behind the windows' arrays: `main_v1` (twice) and `main_v2`. -/
theorem arrRefs_eq : Finset.univ.image (Pipeline.arrRef spec0) = ([main_v1, main_v2] : List (Ref sig .tc)).toFinset := by decide

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- ENTRY: the two buffers behind the arrays, whole at the full share at contents `Vb`, are the three windows' arrays at
    contents `F` that read `Vb` - the shared one split along its share. -/
theorem arrays_of_arrBufs (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v1) (h1 : Fw 1 = Vb main_v1) (h2 : Fw 2 = Vb main_v2) :
    (Pipeline.arrBufs (Ix := Unit) (Name := ℕ) (U := UR sig nD τ) (Lvl := ℕ) spec0 c Vb : sProp 𝕄) ⊢ (dats m 0 c).arrays Fw := by
  unfold Pipeline.arrBufs Dat.arrays
  rw [bigSep_eq_bigSepL_of_eq [main_v1, main_v2] arrRefs_eq (by decide), bigSep_W0]
  rw [share_0, share_1, share_2, (arr_whole0 0).set_eq_univ, (arr_whole0 2).set_eq_univ, h0, h1, h2]
  change iprop((((c : Thread nD τ).loc main_v1) ↦{fullShare} Vb main_v1) ∗ (((c : Thread nD τ).loc main_v2) ↦{fullShare} Vb main_v2)) ⊢ _
  iintro ⟨H1, H2⟩
  ihave H := (pointsTo_share (PosShare.mem_left_op_right fullShare)).1 $$ H1
  icases H with ⟨Hl, Hr⟩
  isplitl [Hl]; · iexact Hl
  isplitl [Hr]; · iexact Hr
  iexact H2

/-- EXIT: the converse - the two halves of the shared array, at one contents, make it whole again. -/
theorem arrBufs_of_arrays (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v1) (h1 : Fw 1 = Vb main_v1) (h2 : Fw 2 = Vb main_v2) :
    (dats m 0 c).arrays Fw ⊢ (Pipeline.arrBufs (Ix := Unit) (Name := ℕ) (U := UR sig nD τ) (Lvl := ℕ) spec0 c Vb : sProp 𝕄) := by
  unfold Pipeline.arrBufs Dat.arrays
  rw [bigSep_eq_bigSepL_of_eq [main_v1, main_v2] arrRefs_eq (by decide), bigSep_W0]
  rw [share_0, share_1, share_2, (arr_whole0 0).set_eq_univ, (arr_whole0 2).set_eq_univ, h0, h1, h2]
  change _ ⊢ iprop((((c : Thread nD τ).loc main_v1) ↦{fullShare} Vb main_v1) ∗ (((c : Thread nD τ).loc main_v2) ↦{fullShare} Vb main_v2))
  iintro ⟨Hl, Hr, H2⟩
  isplitl [Hl Hr]
  · iapply (pointsTo_share (PosShare.mem_left_op_right fullShare)).2
    isplitl [Hl]; · iexact Hl
    iexact Hr
  iexact H2

end Cert.Kernel.Hand

end
-- ==== Proof.KernelFrame.Region.lean ====
/-
  The pairwise-separation kernel's region, part 5: the launch. @main is a host stretch (transpose, reshape), the kernel
  region, and a host stretch (the result reshaped to a scalar). Between two of them the core holds every unscoped
  buffer whole at a named valuation: the launch contents, then those after the first stretch, then those with the
  result's array at what the 64 points' write-back leaves, then those after the last stretch. The run concludes that the
  final memory holds the last valuation at every unscoped buffer.
-/
import proofs.«180643_j42288247997088_1_alg».proof.Proof.KernelFrame.Share

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-! ## The buffers when the region is left, and after the last stretch -/

/-- When the region is left: the result's array at what the pipeline leaves in it, every other buffer as entered
    (the shared input array is only read). -/
def W2 (c : Dev nD) : Valuation τ sig (Elt F) :=
  Function.update (W1 m c) (Proc.devRef .tc main_v2) ((dats m 0 c).arrAt 2 cfg0.N)
/-- After the reshape that follows the region. -/
abbrev W3 (c : Dev nD) : Valuation τ sig (Elt F) := StableHlo.after hostOps1 (W2 m c)
abbrev V2 (c : Dev nD) (b : Ref sig .tc) : Buf (Elt F) ((c : Thread nD τ).loc b) := W2 m c (Proc.devRef .tc b)

theorem V2_main_v2 (c : Dev nD) : V2 m c main_v2 = (dats m 0 c).arrAt 2 cfg0.N := by
  unfold V2 W2; exact Function.update_self ..
theorem V2_of_ne (c : Dev nD) (b : Ref sig .tc) (hb : b ≠ main_v2) : V2 m c b = V m c b := by
  unfold V2 W2
  exact Function.update_of_ne (StableHlo.devRef_ne_of_ne hb : (Proc.devRef .tc b : DevRef τ sig) ≠ Proc.devRef .tc main_v2) _ _

/-- ENTRY: every unscoped buffer at the region-entry contents is the windows' arrays at their entry contents (the shared
    one in halves) and the buffers that are no window's array. -/
theorem entry_split (c : Dev nD) :
    (StableHlo.held (c : Thread nD τ) (Pipeline.ucRefs τ sig) (W1 m c) : sProp 𝕄)
      ⊢ iprop((dats m 0 c).arrays ((dats m 0 c).arrAt · 0) ∗ Pipeline.unscopedRest spec0 c (V m c)) := by
  rw [← Pipeline.unscopedBufs_held (Ix := Unit) (Name := ℕ) (U := UR sig nD τ) (Lvl := ℕ) c (W1 m c),
    Pipeline.unscopedBufs_split₀ cfgs 0 winFacts₀0.arr_unscoped c]
  exact sep_mono (arrays_of_arrBufs m c (V m c) _ (A_eq m c 0) (A_eq m c 1) (A_eq m c 2)) .rfl

/-- EXIT: the converse, at the contents the region leaves. -/
theorem exit_join (c : Dev nD) :
    iprop((dats m 0 c).arrays ((dats m 0 c).arrAt · cfg0.N) ∗ Pipeline.unscopedRest spec0 c (V m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c]
  refine sep_mono (arrBufs_of_arrays m c (V2 m c) _
    (((dats m 0 c).arrAt_in 0 rfl _).trans ((A_eq m c 0).trans (V2_of_ne m c main_v1 (by decide)).symm))
    (((dats m 0 c).arrAt_in 1 rfl _).trans ((A_eq m c 1).trans (V2_of_ne m c main_v1 (by decide)).symm))
    (V2_main_v2 m c).symm) (Entails.of_eq ?_)
  unfold Pipeline.unscopedRest
  exact bigSep_congr fun b hb =>
    congrArg (fun x : Buf (Elt F) ((c : Thread nD τ).loc b) => ((((c : Thread nD τ).loc b) ↦{fullShare} x) : sProp 𝕄))
      (V2_of_ne m c b fun e => (Finset.mem_sdiff.mp hb).2 (Finset.mem_image.mpr ⟨2, Finset.mem_univ _, e.symm⟩)).symm

/-! ## The segments -/

abbrev adm : (p : Fin 1) → (pcfgs (F := F) p).Adm := fun p => (cfgs p).toPCfg_adm
/-- The one pipeline's proof data, as the family the launch takes. -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's owing nothing apart. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE REGION over the thread state: entered from every unscoped buffer at the contents after the first stretch, left
    with the result's array at what the pipeline leaves. The shared array is dealt in halves at entry and put together
    at exit; the generator register goes into the invariant and comes back; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's items as segments. -/
abbrev segs : List (Seg (pcfgs (F := F)) adm (pdats m) () defs₀ 𝒱₀ L lv) :=
  [.host (hseg hostOps0 hostOps0_sub hostOps0_fresh (W0 m)), .region (reg0 m), .host (hseg hostOps1 hostOps1_sub hostOps1_fresh (W2 m))]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds, at every unscoped buffer, the last valuation: the launch contents pushed through the first
    stretch, the region's write-back of the result, and the last stretch. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KernelFrame.Final.lean ====
/-
  The pairwise-separation kernel's region, part 6: what the run leaves.

  The 1 x 1 result array is written back once, after the last point, with the accumulator as the 64 points left it; the
  argument array is written by no host operation and only read by the region; the program's scalar result is the
  reshape of the result array. So the program runs, its argument ends unchanged (the frame), and its result is the
  reshape of the accumulator after point 63 (the value, for whoever reads the accumulator).
-/
import proofs.«180643_j42288247997088_1_alg».proof.Proof.KernelFrame.Region
import Idealize.ShloMosaic.Lib.Pipeline.Value

-- membership in a rectangle of long axes recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of the grid. -/
abbrev tLast : Fin cfg0.N := ⟨63, by rw [show cfg0.N = 64 from N_0]; decide⟩

/-- The accumulator after the last point, as contents of the result array (its one block IS the array). -/
abbrev result (c : Dev nD) : Buf (Elt F) ((c : Thread nD τ).loc main_v2) := outsAt m c 63 (by rw [show cfg0.N = 64 from N_0]; decide)

/-- The one write-back, at the last point, writes it: block (0, 0) of a 1 x 1 array read through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h3 : t.val = 63 := by have := (flush0_2 t).mp hf; have := t.isLt; omega
  obtain rfl : t = tLast := Fin.ext h3
  show (cfg0.win 2).cut (grid0.coords tLast) ((dats m 0 c).after 2 tLast) = _
  rw [after_2]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the result array ends holding the accumulator after the last point, which covers it. -/
theorem final_result (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The argument reaches the end as launched: neither stretch writes it, and the region leaves every buffer but the
    result's array as it found it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := V2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- The program's scalar result: the result array, reshaped. -/
theorem W3_main_v3 (c : Dev nD) : W3 m c (Proc.devRef .tc main_v3) = shapeCast S_ (result m c) shapeCasts_S1x1_S_ := by
  show StableHlo.after hostOps1 (W2 m c) (Proc.devRef .tc main_v3) = _
  after_results
  rw [show W2 m c (Proc.devRef .tc main_v2) = result m c from (V2_main_v2 m c).trans (final_result m c)]
  rfl

/-- THE FRAME: the program runs - every weakly fair execution terminates, nothing faulting - and its argument array ends
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_main m ρ)

/-- THE RUN, READ: besides, its scalar result is the reshape of the accumulator after the last point. -/
theorem run_value : θ_run defs (onTc (τ := τ) (main (F := F))) ⟨m, fun _ => 0, ρ⟩ (fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)) :=
  (θ_run defs _ _).mono (fun _ h c => ⟨(h c _ (mem_uc main_v3 (by decide))).trans (W3_main_v3 m c),
    (h c _ (mem_uc main_arg0 (by decide))).trans (W3_main_arg0 m c)⟩) (run_main m ρ)

end Cert.Kernel.Hand

end
-- ==== Proof.KernelIdealFrame.Base.lean ====
/-
  The pairwise-separation kernel's region, part 1: what every later module is stated over.

  The program transposes and reshapes its argument into the 8192 x 128 array `main_v1`, runs ONE kernel region on an
  8 x 8 grid whose first two windows are both blocks of that one array (rows 1024 i .. and rows 1024 j .. at the point
  (i, j)) and whose third window is the 1 x 1 result, and reshapes the result to a scalar. Here: the buffers' contents
  when the region is entered, each window's block at a point, the fact that an input window's current staging buffer
  holds that block at every point (fetched there or not), the test "this is the first point" in closed form, and the
  staging memrefs the body is called with.
-/
import proofs.«180643_j42288247997088_1_alg».proof.Proof.Gen.KernelIdeal.Launch
import proofs.«180643_j42288247997088_1_alg».proof.Proof.Gen.KernelIdeal.Skeleton
import proofs.«180643_j42288247997088_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s unscoped buffers at launch. -/
abbrev W0 (c : Dev nD) : Valuation τ sig (Elt F) := fun b => m (c, b)
/-- After the transpose and the reshape that precede the region. -/
abbrev W1 (c : Dev nD) : Valuation τ sig (Elt F) := StableHlo.after hostOps0 (W0 m c)
/-- The same, by TensorCore reference: what the region finds in each buffer. -/
abbrev V (c : Dev nD) (b : Ref sig .tc) : Buf (Elt F) ((c : Thread nD τ).loc b) := W1 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window (rows 1024 i ..): its current staging buffer holds its block at every point, for any proof data
    whose array is the region-entry one and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-block window (rows 1024 j ..): likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one branch: both grid coordinates are zero (the scalar chain of the printed condition). -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 and nowhere else: decided over the 64 points. -/
theorem isFirst_iff : ∀ t : Fin cfg0.N, isFirst (grid0.coords t) ↔ t.val % 64 = 0 :=
  (by decide +kernel : ∀ t : Fin grid0.N, isFirst (grid0.coords t) ↔ t.val % 64 = 0)

/-! ## The staging memrefs the body is called with -/

/-- One staging buffer of the result window, through which its contents are stated. -/
abbrev VO : View sig .tc .vmem S1x1 .f32 := (Memref.whole cc0_stg2_0 : Memref sig .tc .vmem S1x1 .f32).view
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)

end Cert.KernelIdeal.Hand

end
-- ==== Proof.KernelIdealFrame.RunA.lean ====
/-
  The kernel body run whole in the case "first point": the accumulator is set to zero, read back, and the tile's total added to it.
  The two input buffers are only read; the pieces the result buffer ends with are the witness the run finds.
-/
import proofs.«180643_j42288247997088_1_alg».proof.Proof.KernelIdealFrame.Base

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body's stores leave in the result's staging memref in this case, with the proof that from whole
    staging memrefs — the inputs' at their contents, the result's at anything — the body runs to the continuation
    with the inputs' as they were and the result's buffer with those pieces written. -/
noncomputable def kernelRunA (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole) (hc : isFirst i)
    (x0 x1 : Vec F S1024x128 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__pairsep_kernel i arg2 harg2 arg3 harg3 arg4 harg4) K } := by
  refine ⟨?_, fun E K => ?run⟩
  case run =>
    simp only [cc0__pairsep_kernel_eq_skeleton]; unfold cc0__pairsep_kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdealFrame.RunB.lean ====
/-
  The kernel body run whole in the case "not the first point": the accumulator is read as the point before left it and the tile's total added to it.
  The two input buffers are only read; the pieces the result buffer ends with are the witness the run finds.
-/
import proofs.«180643_j42288247997088_1_alg».proof.Proof.KernelIdealFrame.RunA

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The pieces the body's stores leave in the result's staging memref in this case, with the proof that from whole
    staging memrefs — the inputs' at their contents, the result's at what the point before left — the body runs to the continuation
    with the inputs' as they were and the result's buffer with those pieces written. -/
noncomputable def kernelRunB (c : Dev nD) (i : grid0.Coords) (arg2 : Memref sig .tc .vmem S1024x128 .f32) (harg2 : arg2.IsWhole)
    (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__pairsep_kernel i arg2 harg2 arg3 harg3 arg4 harg4) K } := by
  refine ⟨?_, fun E K => ?run⟩
  case run =>
    simp only [cc0__pairsep_kernel_eq_skeleton]; unfold cc0__pairsep_kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdealFrame.Data.lean ====
/-
  The pairwise-separation kernel's region, part 3: what the result's staging buffer holds after each of the 64 points,
  the pipeline's proof data, and the body obligation.

  The result window is the same 1 x 1 block at every point and is written back only after the last one, so its staging
  buffer is an ACCUMULATOR: the first point's run leaves in it what that run's stores leave over anything, every later
  point's run what its stores leave over what the point before left. The two input windows are blocks of ONE array; the
  proof data hold that array's left half-share for the first and its right half-share for the second (both only read it).
-/
import proofs.«180643_j42288247997088_1_alg».proof.Proof.KernelIdealFrame.RunB

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces for the result tile its 1 x 1 block, so they cover it. -/
theorem coverA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : isFirst i)
    (x0 x1 : Vec F S1024x128 .f32) (y : S1x1.Idx) :
    ∃ pc ∈ (kernelRunA c i arg2 harg2 arg3 harg3 arg4 harg4 hc x0 x1).1, y ∈ pc.1.set :=
  View.cover_of_tiledL (kernelRunA c i arg2 harg2 arg3 harg3 arg4 harg4 hc x0 x1).1 S1x1.size (by sl_kernel_rfl) y

/-- What the first point leaves in the result's staging buffer: its pieces read back over anything. -/
def outA (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : isFirst i)
    (x0 x1 : Vec F S1024x128 .f32) : Vec F S1x1 .f32 :=
  VO.read (Elt F) (VO.writes (Elt F) VO.junk (kernelRunA c i arg2 harg2 arg3 harg3 arg4 harg4 hc x0 x1).1)

/-- A later point's pieces for the result tile its block likewise. -/
theorem coverB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) (y : S1x1.Idx) :
    ∃ pc ∈ (kernelRunB c i arg2 harg2 arg3 harg3 arg4 harg4 hc x0 x1 xo).1, y ∈ pc.1.set :=
  View.cover_of_tiledL (kernelRunB c i arg2 harg2 arg3 harg3 arg4 harg4 hc x0 x1 xo).1 S1x1.size (by sl_kernel_rfl) y

/-- What a later point leaves there, given what the point before left (`xo`). -/
def outB (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (hc : ¬isFirst i)
    (x0 x1 : Vec F S1024x128 .f32) (xo : Vec F S1x1 .f32) : Vec F S1x1 .f32 :=
  VO.read (Elt F) (VO.writes (Elt F) VO.junk (kernelRunB c i arg2 harg2 arg3 harg3 arg4 harg4 hc x0 x1 xo).1)

/-! ## The accumulator, point by point -/

/-- What the result's staging buffer holds after the body at point number `n`: the first point's run on the point's
    input blocks, or a later point's run on its input blocks over what this gives at `n - 1`. -/
def outsAt (c : Dev nD) : (n : ℕ) → n < cfg0.N → Vec F S1x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) ((isFirst_iff ⟨0, hn⟩).mpr (Nat.zero_mod _)) (iblk m c 0 ⟨0, hn⟩) (iblk m c 1 ⟨0, hn⟩)
  | n + 1, hn =>
    if h0 : (n + 1) % 64 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) ((isFirst_iff ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (fun h => h0 ((isFirst_iff ⟨n + 1, hn⟩).mp h)) (iblk m c 0 ⟨n + 1, hn⟩) (iblk m c 1 ⟨n + 1, hn⟩) (outsAt c n (Nat.lt_of_succ_lt hn))

theorem outsAt_first (c : Dev nD) (t : Fin cfg0.N) (h0 : t.val % 64 = 0) :
    outsAt m c t.val t.isLt = outA c (grid0.coords t) (ms0 t) (hs0 t) (ms1 t) (hs1 t) (ms2 t) (hs2 t) ((isFirst_iff t).mpr h0) (iblk m c 0 t) (iblk m c 1 t) := by
  obtain ⟨n, hn⟩ := t
  cases n with
  | zero => exact rfl
  | succ n => exact (dif_pos h0).trans rfl

theorem outsAt_later (c : Dev nD) (t : Fin cfg0.N) (h0 : ¬t.val % 64 = 0) :
    outsAt m c t.val t.isLt = outB c (grid0.coords t) (ms0 t) (hs0 t) (ms1 t) (hs1 t) (ms2 t) (hs2 t) (fun h => h0 ((isFirst_iff t).mp h)) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the result's at `outsAt`; the invariant the scoped rest and the generator
    register; nothing owed. The array the two input windows share is held in halves: the left half-share by the
    row-block window, the right half-share by the column-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
/-- At a later point the result's staging buffer holds what the body left at the point before: it is written back only
    after the last point. -/
theorem before_2_later (c : Dev nD) (t : Fin cfg0.N) (h0 : ¬t.val % 64 = 0) (d) :
    (dats m 0 c).before 2 t d = (outsAt m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the closed form says whether the point is the first;
    at a later point the result's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  have hN : t.val < 64 := lt_of_lt_of_eq t.isLt (show cfg0.N = 64 from N_0)
  by_cases h0 : t.val % 64 = 0
  · rw [outsAt_first m c t h0]
    unfold outA
    iintro ⟨HΦ, Ho, ⟨%d0, H0⟩, ⟨%d1, H1⟩, ⟨%d2, H2⟩⟩
    iapply ((kernelRunA c (grid0.coords t) _ _ _ _ _ _ ((isFirst_iff t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _)
  · rw [outsAt_later m c t h0]
    simp only [before_2_later m c t h0]
    unfold outB
    iintro ⟨HΦ, Ho, ⟨%d0, H0⟩, ⟨%d1, H1⟩, ⟨%d2, H2⟩⟩
    iapply ((kernelRunB c (grid0.coords t) _ _ _ _ _ _ (fun h => h0 ((isFirst_iff t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealFrame.Share.lean ====
/-
  The pairwise-separation kernel's region, part 4: the one array two windows read.

  The row-block window and the column-block window are both windows of the array `main_v1`. Entering the region, the
  core's full share of that array is dealt in halves - the left half to the first window, the right half to the second
  (both only read it) - while the 1 x 1 result's array goes whole to the third window; leaving it, the two halves are put
  together again. Between, the buffers that are no window's array ride along unchanged.
-/
import proofs.«180643_j42288247997088_1_alg».proof.Proof.KernelIdealFrame.Data
import Idealize.ShloMosaic.Lib.Pipeline.Regions

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-- The buffers behind the windows' arrays: `main_v1` (twice) and `main_v2`. -/
theorem arrRefs_eq : Finset.univ.image (Pipeline.arrRef spec0) = ([main_v1, main_v2] : List (Ref sig .tc)).toFinset := by decide

theorem share_0 (c : Dev nD) : (dats m 0 c).share 0 = fullShare.left := rfl
theorem share_1 (c : Dev nD) : (dats m 0 c).share 1 = fullShare.right := rfl
theorem share_2 (c : Dev nD) : (dats m 0 c).share 2 = fullShare := rfl

/-- ENTRY: the two buffers behind the arrays, whole at the full share at contents `Vb`, are the three windows' arrays at
    contents `F` that read `Vb` - the shared one split along its share. -/
theorem arrays_of_arrBufs (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v1) (h1 : Fw 1 = Vb main_v1) (h2 : Fw 2 = Vb main_v2) :
    (Pipeline.arrBufs (Ix := Unit) (Name := ℕ) (U := UR sig nD τ) (Lvl := ℕ) spec0 c Vb : sProp 𝕄) ⊢ (dats m 0 c).arrays Fw := by
  unfold Pipeline.arrBufs Dat.arrays
  rw [bigSep_eq_bigSepL_of_eq [main_v1, main_v2] arrRefs_eq (by decide), bigSep_W0]
  rw [share_0, share_1, share_2, (arr_whole0 0).set_eq_univ, (arr_whole0 2).set_eq_univ, h0, h1, h2]
  change iprop((((c : Thread nD τ).loc main_v1) ↦{fullShare} Vb main_v1) ∗ (((c : Thread nD τ).loc main_v2) ↦{fullShare} Vb main_v2)) ⊢ _
  iintro ⟨H1, H2⟩
  ihave H := (pointsTo_share (PosShare.mem_left_op_right fullShare)).1 $$ H1
  icases H with ⟨Hl, Hr⟩
  isplitl [Hl]; · iexact Hl
  isplitl [Hr]; · iexact Hr
  iexact H2

/-- EXIT: the converse - the two halves of the shared array, at one contents, make it whole again. -/
theorem arrBufs_of_arrays (c : Dev nD) (Vb : (b : Ref sig .tc) → Buf (Elt F) ((c : Thread nD τ).loc b))
    (Fw : (w : Fin cfg0.W) → Buf (Elt F) ((cfg0.win w).arr.view.loc (c : Thread nD τ)))
    (h0 : Fw 0 = Vb main_v1) (h1 : Fw 1 = Vb main_v1) (h2 : Fw 2 = Vb main_v2) :
    (dats m 0 c).arrays Fw ⊢ (Pipeline.arrBufs (Ix := Unit) (Name := ℕ) (U := UR sig nD τ) (Lvl := ℕ) spec0 c Vb : sProp 𝕄) := by
  unfold Pipeline.arrBufs Dat.arrays
  rw [bigSep_eq_bigSepL_of_eq [main_v1, main_v2] arrRefs_eq (by decide), bigSep_W0]
  rw [share_0, share_1, share_2, (arr_whole0 0).set_eq_univ, (arr_whole0 2).set_eq_univ, h0, h1, h2]
  change _ ⊢ iprop((((c : Thread nD τ).loc main_v1) ↦{fullShare} Vb main_v1) ∗ (((c : Thread nD τ).loc main_v2) ↦{fullShare} Vb main_v2))
  iintro ⟨Hl, Hr, H2⟩
  isplitl [Hl Hr]
  · iapply (pointsTo_share (PosShare.mem_left_op_right fullShare)).2
    isplitl [Hl]; · iexact Hl
    iexact Hr
  iexact H2

end Cert.KernelIdeal.Hand

end
-- ==== Proof.KernelIdealFrame.Region.lean ====
/-
  The pairwise-separation kernel's region, part 5: the launch. @main is a host stretch (transpose, reshape), the kernel
  region, and a host stretch (the result reshaped to a scalar). Between two of them the core holds every unscoped
  buffer whole at a named valuation: the launch contents, then those after the first stretch, then those with the
  result's array at what the 64 points' write-back leaves, then those after the last stretch. The run concludes that the
  final memory holds the last valuation at every unscoped buffer.
-/
import proofs.«180643_j42288247997088_1_alg».proof.Proof.KernelIdealFrame.Share

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Seg HostSeg RegionSeg)

/-! ## The buffers when the region is left, and after the last stretch -/

/-- When the region is left: the result's array at what the pipeline leaves in it, every other buffer as entered
    (the shared input array is only read). -/
def W2 (c : Dev nD) : Valuation τ sig (Elt F) :=
  Function.update (W1 m c) (Proc.devRef .tc main_v2) ((dats m 0 c).arrAt 2 cfg0.N)
/-- After the reshape that follows the region. -/
abbrev W3 (c : Dev nD) : Valuation τ sig (Elt F) := StableHlo.after hostOps1 (W2 m c)
abbrev V2 (c : Dev nD) (b : Ref sig .tc) : Buf (Elt F) ((c : Thread nD τ).loc b) := W2 m c (Proc.devRef .tc b)

theorem V2_main_v2 (c : Dev nD) : V2 m c main_v2 = (dats m 0 c).arrAt 2 cfg0.N := by
  unfold V2 W2; exact Function.update_self ..
theorem V2_of_ne (c : Dev nD) (b : Ref sig .tc) (hb : b ≠ main_v2) : V2 m c b = V m c b := by
  unfold V2 W2
  exact Function.update_of_ne (StableHlo.devRef_ne_of_ne hb : (Proc.devRef .tc b : DevRef τ sig) ≠ Proc.devRef .tc main_v2) _ _

/-- ENTRY: every unscoped buffer at the region-entry contents is the windows' arrays at their entry contents (the shared
    one in halves) and the buffers that are no window's array. -/
theorem entry_split (c : Dev nD) :
    (StableHlo.held (c : Thread nD τ) (Pipeline.ucRefs τ sig) (W1 m c) : sProp 𝕄)
      ⊢ iprop((dats m 0 c).arrays ((dats m 0 c).arrAt · 0) ∗ Pipeline.unscopedRest spec0 c (V m c)) := by
  rw [← Pipeline.unscopedBufs_held (Ix := Unit) (Name := ℕ) (U := UR sig nD τ) (Lvl := ℕ) c (W1 m c),
    Pipeline.unscopedBufs_split₀ cfgs 0 winFacts₀0.arr_unscoped c]
  exact sep_mono (arrays_of_arrBufs m c (V m c) _ (A_eq m c 0) (A_eq m c 1) (A_eq m c 2)) .rfl

/-- EXIT: the converse, at the contents the region leaves. -/
theorem exit_join (c : Dev nD) :
    iprop((dats m 0 c).arrays ((dats m 0 c).arrAt · cfg0.N) ∗ Pipeline.unscopedRest spec0 c (V m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c]
  refine sep_mono (arrBufs_of_arrays m c (V2 m c) _
    (((dats m 0 c).arrAt_in 0 rfl _).trans ((A_eq m c 0).trans (V2_of_ne m c main_v1 (by decide)).symm))
    (((dats m 0 c).arrAt_in 1 rfl _).trans ((A_eq m c 1).trans (V2_of_ne m c main_v1 (by decide)).symm))
    (V2_main_v2 m c).symm) (Entails.of_eq ?_)
  unfold Pipeline.unscopedRest
  exact bigSep_congr fun b hb =>
    congrArg (fun x : Buf (Elt F) ((c : Thread nD τ).loc b) => ((((c : Thread nD τ).loc b) ↦{fullShare} x) : sProp 𝕄))
      (V2_of_ne m c b fun e => (Finset.mem_sdiff.mp hb).2 (Finset.mem_image.mpr ⟨2, Finset.mem_univ _, e.symm⟩)).symm

/-! ## The segments -/

abbrev adm : (p : Fin 1) → (pcfgs (F := F) p).Adm := fun p => (cfgs p).toPCfg_adm
/-- The one pipeline's proof data, as the family the launch takes. -/
def pdats : (p : Fin 1) → (c : Dev nD) → Dat τ (Elt F) Unit ℕ (UR sig nD τ) ℕ (Pipeline.pin (pcfgs (F := F)) adm p) c
  | ⟨0, _⟩ => fun c => dats m 0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's owing nothing apart. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE REGION over the thread state: entered from every unscoped buffer at the contents after the first stretch, left
    with the result's array at what the pipeline leaves. The shared array is dealt in halves at entry and put together
    at exit; the generator register goes into the invariant and comes back; nothing owed; no semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's items as segments. -/
abbrev segs : List (Seg (pcfgs (F := F)) adm (pdats m) () defs₀ 𝒱₀ L lv) :=
  [.host (hseg hostOps0 hostOps0_sub hostOps0_fresh (W0 m)), .region (reg0 m), .host (hseg hostOps1 hostOps1_sub hostOps1_fresh (W2 m))]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds, at every unscoped buffer, the last valuation: the launch contents pushed through the first
    stretch, the region's write-back of the result, and the last stretch. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KernelIdealFrame.Final.lean ====
/-
  The pairwise-separation kernel's region, part 6: what the run leaves.

  The 1 x 1 result array is written back once, after the last point, with the accumulator as the 64 points left it; the
  argument array is written by no host operation and only read by the region; the program's scalar result is the
  reshape of the result array. So the program runs, its argument ends unchanged (the frame), and its result is the
  reshape of the accumulator after point 63 (the value, for whoever reads the accumulator).
-/
import proofs.«180643_j42288247997088_1_alg».proof.Proof.KernelIdealFrame.Region
import Idealize.ShloMosaic.Lib.Pipeline.Value

-- membership in a rectangle of long axes recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point of the grid. -/
abbrev tLast : Fin cfg0.N := ⟨63, by rw [show cfg0.N = 64 from N_0]; decide⟩

/-- The accumulator after the last point, as contents of the result array (its one block IS the array). -/
abbrev result (c : Dev nD) : Buf (Elt F) ((c : Thread nD τ).loc main_v2) := outsAt m c 63 (by rw [show cfg0.N = 64 from N_0]; decide)

/-- The one write-back, at the last point, writes it: block (0, 0) of a 1 x 1 array read through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 64 := N_0
  have h3 : t.val = 63 := by have := (flush0_2 t).mp hf; have := t.isLt; omega
  obtain rfl : t = tLast := Fin.ext h3
  show (cfg0.win 2).cut (grid0.coords tLast) ((dats m 0 c).after 2 tLast) = _
  rw [after_2]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the result array ends holding the accumulator after the last point, which covers it. -/
theorem final_result (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The argument reaches the end as launched: neither stretch writes it, and the region leaves every buffer but the
    result's array as it found it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := V2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- The program's scalar result: the result array, reshaped. -/
theorem W3_main_v3 (c : Dev nD) : W3 m c (Proc.devRef .tc main_v3) = shapeCast S_ (result m c) shapeCasts_S1x1_S_ := by
  show StableHlo.after hostOps1 (W2 m c) (Proc.devRef .tc main_v3) = _
  after_results
  rw [show W2 m c (Proc.devRef .tc main_v2) = result m c from (V2_main_v2 m c).trans (final_result m c)]
  rfl

/-- THE FRAME: the program runs - every weakly fair execution terminates, nothing faulting - and its argument array ends
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_main m ρ)

/-- THE RUN, READ: besides, its scalar result is the reshape of the accumulator after the last point. -/
theorem run_value : θ_run defs (onTc (τ := τ) (main (F := F))) ⟨m, fun _ => 0, ρ⟩ (fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)) :=
  (θ_run defs _ _).mono (fun _ h c => ⟨(h c _ (mem_uc main_v3 (by decide))).trans (W3_main_v3 m c),
    (h c _ (mem_uc main_arg0 (by decide))).trans (W3_main_arg0 m c)⟩) (run_main m ρ)

end Cert.KernelIdeal.Hand

end
-- ==== Proof.KernelIdealValue.Cases.lean ====
/-
  What one run of the kernel body leaves in the result's 1 x 1 staging buffer, as a value.

  The first point stores the zero word, reads it back and stores "what was read + the tile's total"; a later point reads
  what the point before left and stores "that + the tile's total". Each run's stores are whole-buffer stores, so the
  buffer read back after them is the last stored value; the loads of the two input buffers read their whole contents.
-/
import proofs.«180643_j42288247997088_1_alg».proof.Proof.KernelIdealFrame.Data
import Idealize.ShloMosaic.Lib.Pipeline.Value
import Idealize.ShloMosaic.Lib.Tactic

set_option maxRecDepth 16384

noncomputable section

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]

/-- Both buffers are read and written from their origin. -/
theorem origin2 : (![0, 0] : Fin 2 → Nat) = fun _ => 0 := funext fun a => by fin_cases a <;> rfl

/-- A later point: the buffer held `xo`; it ends holding `xo` plus the sum of the tile's 1024 row totals. -/
theorem outB_eq (c : Dev nD) (i : grid0.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : ¬isFirst i) (x0 x1 : Vec F S1024x128 .f32) (xo : Vec F S1x1 .f32) :
    outB c i a2 h2 a3 h3 a4 h4 hc x0 x1 xo = k0_pay2 (k0_pay3 i x0 x1) xo := by
  unfold outB
  rw [View.read_writes_eq_canon _ _ _ (coverB c i a2 h2 a3 h3 a4 h4 hc x0 x1 xo)]
  unfold kernelRunB
  dsimp only
  sl_unfold_words
  rw [View.canon_unit_zero (S := S1x1) origin2]
  simp only [View.readAt_eq_ld, h2.read_unread, h3.read_unread, h4.read_unread, View.ld_unit_zero (S := S1x1) origin2,
    View.ld_unit_zero (S := S1024x128) origin2]

/-- The first point: whatever the buffer held, it ends holding the zero word plus the sum of the tile's row totals. -/
theorem outA_eq (c : Dev nD) (i : grid0.Coords) (a2 : Memref sig .tc .vmem S1024x128 .f32) (h2 : a2.IsWhole)
    (a3 : Memref sig .tc .vmem S1024x128 .f32) (h3 : a3.IsWhole) (a4 : Memref sig .tc .vmem S1x1 .f32) (h4 : a4.IsWhole)
    (hc : isFirst i) (x0 x1 : Vec F S1024x128 .f32) :
    outA c i a2 h2 a3 h3 a4 h4 hc x0 x1 = k0_pay2 (k0_pay3 i x0 x1) k0_pay1 := by
  unfold outA
  rw [View.read_writes_eq_canon _ _ _ (coverA c i a2 h2 a3 h3 a4 h4 hc x0 x1)]
  unfold kernelRunA
  dsimp only
  sl_unfold_words
  rw [View.canon_cons_unit_zero (S := S1x1) origin2, View.readCov_unit_zero (S := S1x1) _ origin2]
  simp only [View.readAt_eq_ld, h2.read_unread, h3.read_unread, View.ld_unit_zero (S := S1024x128) origin2]

end Cert.KernelIdeal.HandValue

end
-- ==== Proof.KernelIdealValue.Blocks.lean ====
/-
  The two input windows' blocks read at an index.

  Both input windows cut the same 8192 x 128 array into 1024-row blocks: at the grid point number t = 8 i + j the first
  window's block is rows 1024 i .. 1024 i + 1023 and the second's is rows 1024 j .. 1024 j + 1023, all 128 columns.
  A block's element (r, k) is therefore the array's element (1024 i + r, k), respectively (1024 j + r, k): on each axis
  the position in the array is the block's index times the block's size plus the position inside the block.
-/
import proofs.«180643_j42288247997088_1_alg».proof.Proof.KernelIdealFrame.Base
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable {F : FTy → Type} [FloatOps F]
variable (m : (ℓ : Loc nD τ sig) → Buf (Elt F) ℓ)

/-- The printed index maps and the grid's coordinates at point number `t`, decided over the 64 points: the point's
    coordinates are (t / 8, t % 8), the first window's block index is (t / 8, 0) and the second's (t % 8, 0). -/
theorem point_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ (grid0.coords t 0).val = t.val / 8 ∧ (grid0.coords t 1).val = t.val % 8 :=
  (by decide +kernel : ∀ t : Fin grid0.N, _)

/-- Row `1024 * q + r` of the array, for a block number `q` below 8 and a row `r` of the block. -/
abbrev rowOf (q : Nat) (hq : q < 8) (r : Fin 1024) : Fin 8192 := ⟨1024 * q + r.val, by have := r.isLt; omega⟩

theorem div8_lt (t : Fin cfg0.N) : t.val / 8 < 8 := by
  have hN : t.val < 64 := lt_of_lt_of_eq t.isLt (show cfg0.N = 64 from N_0)
  omega
theorem mod8_lt (t : Fin cfg0.N) : t.val % 8 < 8 := Nat.mod_lt _ (by decide)

/-- The first window's block at point `t`: element (r, k) is the array's (1024 (t / 8) + r, k). -/
theorem iblk0_apply (c : Dev nD) (t : Fin cfg0.N) (r : Fin 1024) (k : Fin 128) :
    (iblk m c 0 t : Vec F S1024x128 .f32) (ix2 r k)
      = (V m c main_v1 : S8192x128.Idx → F .f32) (ix2 (rowOf (t.val / 8) (div8_lt t) r) k) := by
  obtain ⟨e0, e1, -, -, -, -⟩ := point_facts t
  unfold iblk
  rw [View.read_apply]
  show V m c main_v1 (((cfg0.win 0).blk t).view.emb (ix2 r k)) = V m c main_v1 (ix2 (rowOf (t.val / 8) (div8_lt t) r) k)
  refine congrArg (V m c main_v1) (funext fun a => Fin.ext ?_)
  match a with
  | ⟨0, _⟩ => show win0_0.index t (0 : Fin 2) * 1024 + 1 * r.val = 1024 * (t.val / 8) + r.val; rw [e0]; omega
  | ⟨1, _⟩ => show win0_0.index t (1 : Fin 2) * 128 + 1 * k.val = k.val; rw [e1]; omega

/-- The second window's block at point `t`: element (r, k) is the array's (1024 (t % 8) + r, k). -/
theorem iblk1_apply (c : Dev nD) (t : Fin cfg0.N) (r : Fin 1024) (k : Fin 128) :
    (iblk m c 1 t : Vec F S1024x128 .f32) (ix2 r k)
      = (V m c main_v1 : S8192x128.Idx → F .f32) (ix2 (rowOf (t.val % 8) (mod8_lt t) r) k) := by
  obtain ⟨-, -, e0, e1, -, -⟩ := point_facts t
  unfold iblk
  rw [View.read_apply]
  show V m c main_v1 (((cfg0.win 1).blk t).view.emb (ix2 r k)) = V m c main_v1 (ix2 (rowOf (t.val % 8) (mod8_lt t) r) k)
  refine congrArg (V m c main_v1) (funext fun a => Fin.ext ?_)
  match a with
  | ⟨0, _⟩ => show win0_1.index t (0 : Fin 2) * 1024 + 1 * r.val = 1024 * (t.val % 8) + r.val; rw [e0]; omega
  | ⟨1, _⟩ => show win0_1.index t (1 : Fin 2) * 128 + 1 * k.val = k.val; rw [e1]; omega

end Cert.KernelIdeal.HandValue

end
-- ==== Proof.PairSepSpec.lean ====
/-
  The pairwise separation sum, as one function of the array of rows.

  `X` is an 8192 × 128 array of extended reals: row r is one point, described by 128 numbers. For two rows r and c let
      sq r    = ∑ₖ X[r,k] · X[r,k]                (the squared length of row r),
      dot r c = ∑ₖ X[r,k] · X[c,k]                (the inner product of rows r and c),
  so that (sq r + sq c) − 2 · dot r c is the squared distance between the two rows. The pair (r, c) contributes
      term r c = 0                                                      when r = c,
                 exp (w · √(max ((sq r + sq c) − 2 · dot r c) 0))       otherwise,
  where the diagonal is masked twice, as the programs do: under the square root a diagonal entry is replaced by 1
  before the maximum is taken, and the exponential's value on the diagonal is replaced by 0. `total X` is the sum of
  `term` over all 8192 × 8192 ordered pairs, rows first.

  The four float literals (0, 1, 2 and the scale w = −0.4 rounded to single precision) are kept as the extended reals
  their 32-bit words denote; the operations are the extended reals' own, the square root and the exponential with the
  conventions of the ideal reading (√ of a negative number is −∞; exp (−∞) = 0, exp (+∞) = +∞).
-/
import Idealize.ShloMosaic.PureOps.Ideal
import Idealize.ShloMosaic.Lib.ValueIdx

noncomputable section

open scoped BigOperators

namespace Cert.PairSep

open Idealize.ShloMosaic Idealize.ShloMosaic.ValueIdx

/-- An 8192 × 128 array of extended reals: one row per point. -/
abbrev Rows : Type := (⟨2, ![8192, 128]⟩ : Shape).Idx → EReal

/-- The squared length of row `r`: ∑ₖ X[r,k] · X[r,k]. -/
def sq (X : Rows) (r : Fin 8192) : EReal := ∑ k : Fin 128, X (ix2 r k) * X (ix2 r k)

/-- The inner product of rows `r` and `c`: ∑ₖ X[r,k] · X[c,k]. -/
def dot (X : Rows) (r c : Fin 8192) : EReal := ∑ k : Fin 128, X (ix2 r k) * X (ix2 c k)

/-- What the ordered pair of rows (r, c) contributes: 0 on the diagonal, and off it
    exp (w · √(max ((sq r + sq c) − 2 · dot r c) 0)); under the root the diagonal reads 1. -/
def term (X : Rows) (r c : Fin 8192) : EReal :=
  if r = c then Ideal.ofBits .f32 0x00000000#32
  else Ideal.exp (Ideal.ofBits .f32 0xBECCCCCD#32 *
    Ideal.sqrt (max (if r = c then Ideal.ofBits .f32 0x3F800000#32
                     else (sq X r + sq X c) - Ideal.ofBits .f32 0x40000000#32 * dot X r c)
                    (Ideal.ofBits .f32 0x00000000#32)))

/-- THE SPECIFICATION: the sum of `term X r c` over all ordered pairs (r, c) of rows — for each row r the sum over all
    c, and these row sums added over r. -/
def total (X : Rows) : EReal := ∑ r : Fin 8192, ∑ c : Fin 8192, term X r c

end Cert.PairSep

end
-- ==== Proof.TileSums.lean ====
/-
  Regrouping a sum over all pairs of rows by square tiles.

  The index range 0 … 8191 is cut into 8 consecutive stretches of 1024, so a pair (R, C) lies in exactly one of the
  8 × 8 = 64 tiles, tile t covering the rows 1024·(t / 8) … 1024·(t / 8) + 1023 and the columns
  1024·(t % 8) … 1024·(t % 8) + 1023. Summing a function of the pair over each tile and then over the tiles is the sum
  over all pairs: only commutativity and associativity of addition are used, so the statements hold in any commutative
  additive monoid (the extended reals among them). The last part says that adding the tiles' totals one after the other,
  starting from zero, gives the sum of the totals.
-/
import Mathlib.Algebra.BigOperators.Fin
import Mathlib.Logic.Equiv.Fin.Basic

open scoped BigOperators

namespace Cert.PairSep

variable {M : Type*} [AddCommMonoid M]

/-- A sum over 0 … a·b − 1 is the sum over the a stretches of length b of the sums inside each stretch. -/
theorem sum_stretches (a b n : Nat) (hn : a * b = n) (g : Fin n → M) (pos : Fin a → Fin b → Fin n)
    (hpos : ∀ i r, (pos i r).val = b * i.val + r.val) :
    ∑ i : Fin a, ∑ r : Fin b, g (pos i r) = ∑ R : Fin n, g R := by
  subst hn
  rw [← Fintype.sum_prod_type']
  refine Fintype.sum_equiv finProdFinEquiv _ _ fun x => congrArg g (Fin.ext ?_)
  rw [hpos]
  show b * x.1.val + x.2.val = x.2.val + b * x.1.val
  omega

/-- The rows in eight stretches of 1024. -/
theorem sum_rows_by_stretch (g : Fin 8192 → M) (pos : Fin 8 → Fin 1024 → Fin 8192)
    (hpos : ∀ i r, (pos i r).val = 1024 * i.val + r.val) :
    ∑ i : Fin 8, ∑ r : Fin 1024, g (pos i r) = ∑ R : Fin 8192, g R :=
  sum_stretches 8 1024 8192 rfl g pos hpos

/-- THE TILES COVER THE PAIRS ONCE. `row t r` is row r of tile t, `col t c` its column c (any way of writing the two
    indices will do: only their values matter). -/
theorem sum_tiles_eq_sum_pairs (f : Fin 8192 → Fin 8192 → M) (row col : Fin 64 → Fin 1024 → Fin 8192)
    (hrow : ∀ t r, (row t r).val = 1024 * (t.val / 8) + r.val)
    (hcol : ∀ t c, (col t c).val = 1024 * (t.val % 8) + c.val) :
    ∑ t : Fin 64, ∑ r : Fin 1024, ∑ c : Fin 1024, f (row t r) (col t c) = ∑ R : Fin 8192, ∑ C : Fin 8192, f R C := by
  -- the tile number is 8·i + j
  have htile : ∑ t : Fin 64, ∑ r : Fin 1024, ∑ c : Fin 1024, f (row t r) (col t c)
      = ∑ i : Fin 8, ∑ j : Fin 8, ∑ r : Fin 1024, ∑ c : Fin 1024,
          f (row ⟨8 * i.val + j.val, by omega⟩ r) (col ⟨8 * i.val + j.val, by omega⟩ c) :=
    (sum_stretches 8 8 64 rfl (fun t => ∑ r : Fin 1024, ∑ c : Fin 1024, f (row t r) (col t c))
      (fun i j => ⟨8 * i.val + j.val, by omega⟩) (fun _ _ => rfl)).symm
  rw [htile]
  -- the right side, rows then columns by stretches
  rw [← sum_rows_by_stretch (fun R => ∑ C : Fin 8192, f R C)
    (fun i r => ⟨1024 * i.val + r.val, by omega⟩) (fun _ _ => rfl)]
  refine Finset.sum_congr rfl fun i _ => ?_
  rw [Finset.sum_comm]
  refine Finset.sum_congr rfl fun r _ => ?_
  rw [← sum_rows_by_stretch (fun C => f ⟨1024 * i.val + r.val, by omega⟩ C)
    (fun j c => ⟨1024 * j.val + c.val, by omega⟩) (fun _ _ => rfl)]
  refine Finset.sum_congr rfl fun j _ => Finset.sum_congr rfl fun c _ => ?_
  have hr : row ⟨8 * i.val + j.val, by omega⟩ r = ⟨1024 * i.val + r.val, by omega⟩ :=
    Fin.ext (by rw [hrow]; show 1024 * ((8 * i.val + j.val) / 8) + r.val = 1024 * i.val + r.val; omega)
  have hc : col ⟨8 * i.val + j.val, by omega⟩ c = ⟨1024 * j.val + c.val, by omega⟩ :=
    Fin.ext (by rw [hcol]; show 1024 * ((8 * i.val + j.val) % 8) + c.val = 1024 * j.val + c.val; omega)
  rw [hr, hc]

/-- The same with the two indices written out. -/
theorem sum_tiles_eq_sum_pairs' (f : Fin 8192 → Fin 8192 → M) :
    ∑ t : Fin 64, ∑ r : Fin 1024, ∑ c : Fin 1024,
        f ⟨1024 * (t.val / 8) + r.val, by omega⟩ ⟨1024 * (t.val % 8) + c.val, by omega⟩
      = ∑ R : Fin 8192, ∑ C : Fin 8192, f R C :=
  sum_tiles_eq_sum_pairs f _ _ (fun _ _ => rfl) (fun _ _ => rfl)

/-! ## Adding the tiles' totals one after the other -/

/-- A running total `a` that starts at zero plus the first term and adds the next term at every step is, after step
    `n`, the sum of the terms up to `n`. -/
theorem running_total (g : Fin 64 → M) (a : Nat → M) (h0 : a 0 = 0 + g ⟨0, by decide⟩)
    (hstep : ∀ n (hn : n + 1 < 64), a (n + 1) = a n + g ⟨n + 1, hn⟩) (n : Nat) (hn : n < 64) :
    a n = ∑ t ∈ Finset.range (n + 1), (if h : t < 64 then g ⟨t, h⟩ else 0) := by
  induction n with
  | zero => rw [h0, zero_add, Finset.sum_range_one, dif_pos (by decide)]
  | succ k ih =>
    rw [hstep k hn, ih (by omega), Finset.sum_range_succ _ (k + 1), dif_pos hn]

/-- THE LAST RUNNING TOTAL IS THE SUM OVER ALL 64 TILES. -/
theorem running_total_last (g : Fin 64 → M) (a : Nat → M) (h0 : a 0 = 0 + g ⟨0, by decide⟩)
    (hstep : ∀ n (hn : n + 1 < 64), a (n + 1) = a n + g ⟨n + 1, hn⟩) :
    a 63 = ∑ t : Fin 64, g t := by
  rw [running_total g a h0 hstep 63 (by decide), ← Fin.sum_univ_eq_sum_range (fun t => if h : t < 64 then g ⟨t, h⟩ else 0) 64]
  exact Finset.sum_congr rfl fun t _ => dif_pos t.isLt

/-- The same for a running total that is only defined at the 64 steps. -/
theorem running_total_last' (g : Fin 64 → M) (a : (n : Nat) → n < 64 → M) (h0 : a 0 (by decide) = 0 + g ⟨0, by decide⟩)
    (hstep : ∀ n (hn : n + 1 < 64), a (n + 1) hn = a n (by omega) + g ⟨n + 1, hn⟩) :
    a 63 (by decide) = ∑ t : Fin 64, g t := by
  have h := running_total_last g (fun n => if h : n < 64 then a n h else 0)
    (by rw [dif_pos (by decide)]; exact h0)
    (fun n hn => by rw [dif_pos hn, dif_pos (by omega : n < 64)]; exact hstep n hn)
  rwa [dif_pos (by decide)] at h

end Cert.PairSep
-- ==== Proof.KernelIdealValue.Acc.lean ====
/-
  The accumulator after the last grid point is the pairwise-separation total.

  The 1 x 1 result buffer is written back only after the last of the 64 points, so what the array ends with is what
  the buffer holds after point 63. Point 0 leaves "zero + (tile 0's total)", point n + 1 leaves "what point n left +
  (tile n + 1's total)", where tile t = 8 i + j pairs the rows 1024 i .. 1024 i + 1023 with the rows 1024 j .. 1024 j + 1023
  of the one array both input windows read. The running total after the last point is the sum of the 64 tiles' totals,
  and the tiles cover every ordered pair of rows exactly once, so that sum is the total over all pairs.

  The three facts about the body's arithmetic that this needs (what each stored value is at an index, over the
  extended reals) enter as hypotheses, so that this module does not depend on how they are proved.
-/
import proofs.«180643_j42288247997088_1_alg».proof.Proof.KernelIdealValue.Cases
import proofs.«180643_j42288247997088_1_alg».proof.Proof.KernelIdealValue.Blocks
import proofs.«180643_j42288247997088_1_alg».proof.Proof.PairSepSpec
import proofs.«180643_j42288247997088_1_alg».proof.Proof.TileSums
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- The 8192 x 128 array both input windows read, as the region finds it: one row per point. -/
abbrev rows (c : Dev nD) : Cert.PairSep.Rows := V (F := Ideal) m c main_v1

/-- The 1 x 1 shape has one index. -/
theorem idx_one_one (y : S1x1.Idx) : y = ix2 (0 : Fin 1) (0 : Fin 1) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)

/-- Tile `t`'s total: the pairs (row r of stretch t / 8, row c of stretch t % 8). -/
def tileTotal (X : Cert.PairSep.Rows) (t : Fin 64) : EReal :=
  ∑ r : Fin 1024, ∑ c : Fin 1024,
    Cert.PairSep.term X (rowOf (t.val / 8) (by have := t.isLt; omega) r) (rowOf (t.val % 8) (by have := t.isLt; omega) c)

/-- The tiles' totals add up to the total over all ordered pairs of rows. -/
theorem sum_tileTotal (X : Cert.PairSep.Rows) : ∑ t : Fin 64, tileTotal X t = Cert.PairSep.total X :=
  Cert.PairSep.sum_tiles_eq_sum_pairs (fun R C => Cert.PairSep.term X R C)
    (fun t r => rowOf (t.val / 8) (by have := t.isLt; omega) r) (fun t c => rowOf (t.val % 8) (by have := t.isLt; omega) c)
    (fun _ _ => rfl) (fun _ _ => rfl)

/-- AFTER THE LAST POINT the result buffer holds the total over all ordered pairs of rows of the array. -/
theorem outsAt_last_of (c : Dev nD)
    (hpay1 : ∀ y : S1x1.Idx, k0_pay1 (F := Ideal) y = Ideal.ofBits .f32 0x00000000#32)
    (hpay2 : ∀ (v41 : FVec Ideal S1024x1 .f32) (v49 : Vec Ideal S1x1 .f32) (y : S1x1.Idx),
      k0_pay2 (F := Ideal) v41 v49 y = v49 y + ∑ r : Fin 1024, v41 (ix2 r (0 : Fin 1)))
    (hpay3 : ∀ (t : Fin cfg0.N) (r : Fin 1024),
      k0_pay3 (F := Ideal) (grid0.coords t) (iblk m c 0 t) (iblk m c 1 t) (ix2 r (0 : Fin 1))
        = ∑ c' : Fin 1024, Cert.PairSep.term (rows m c) (rowOf (t.val / 8) (div8_lt t) r) (rowOf (t.val % 8) (mod8_lt t) c'))
    (h63 : 63 < cfg0.N) :
    outsAt (F := Ideal) m c 63 h63 = fun _ => Cert.PairSep.total (rows m c) := by
  have hN : cfg0.N = 64 := N_0
  -- the first point
  have first : ∀ (h0 : 0 < cfg0.N),
      outsAt (F := Ideal) m c 0 h0 (ix2 (0 : Fin 1) (0 : Fin 1)) = 0 + tileTotal (rows m c) ⟨0, by decide⟩ := by
    intro h0
    refine (congrFun (outsAt_first m c ⟨0, h0⟩ rfl) (ix2 (0 : Fin 1) (0 : Fin 1))).trans ?_
    refine (congrFun (outA_eq (F := Ideal) c (grid0.coords ⟨0, h0⟩) (ms0 ⟨0, h0⟩) (hs0 ⟨0, h0⟩) (ms1 ⟨0, h0⟩) (hs1 ⟨0, h0⟩)
      (ms2 ⟨0, h0⟩) (hs2 ⟨0, h0⟩) _ (iblk m c 0 ⟨0, h0⟩) (iblk m c 1 ⟨0, h0⟩)) (ix2 (0 : Fin 1) (0 : Fin 1))).trans ?_
    refine (hpay2 _ _ _).trans ?_
    rw [hpay1, Ideal.ofBits_zero_f32]
    exact congrArg (0 + ·) (Finset.sum_congr rfl fun r _ => hpay3 ⟨0, h0⟩ r)
  -- a later point
  have later : ∀ (n : Nat) (hn : n + 1 < 64) (h1 : n + 1 < cfg0.N) (h2 : n < cfg0.N),
      outsAt (F := Ideal) m c (n + 1) h1 (ix2 (0 : Fin 1) (0 : Fin 1))
        = outsAt (F := Ideal) m c n h2 (ix2 (0 : Fin 1) (0 : Fin 1)) + tileTotal (rows m c) ⟨n + 1, hn⟩ := by
    intro n hn h1 h2
    have hB : ¬(⟨n + 1, h1⟩ : Fin cfg0.N).val % 64 = 0 := by show ¬(n + 1) % 64 = 0; omega
    refine (congrFun (outsAt_later m c ⟨n + 1, h1⟩ hB) (ix2 (0 : Fin 1) (0 : Fin 1))).trans ?_
    refine (congrFun (outB_eq (F := Ideal) c (grid0.coords ⟨n + 1, h1⟩) (ms0 ⟨n + 1, h1⟩) (hs0 ⟨n + 1, h1⟩) (ms1 ⟨n + 1, h1⟩) (hs1 ⟨n + 1, h1⟩)
      (ms2 ⟨n + 1, h1⟩) (hs2 ⟨n + 1, h1⟩) _ (iblk m c 0 ⟨n + 1, h1⟩) (iblk m c 1 ⟨n + 1, h1⟩)
      (outsAt (F := Ideal) m c n h2)) (ix2 (0 : Fin 1) (0 : Fin 1))).trans ?_
    refine (hpay2 _ _ _).trans ?_
    exact congrArg (outsAt (F := Ideal) m c n h2 (ix2 (0 : Fin 1) (0 : Fin 1)) + ·) (Finset.sum_congr rfl fun r _ => hpay3 ⟨n + 1, h1⟩ r)
  -- the running total after the last point is the sum of the tiles' totals
  have hsum := Cert.PairSep.running_total_last' (tileTotal (rows m c))
    (fun n hn => outsAt (F := Ideal) m c n (lt_of_lt_of_eq hn hN.symm) (ix2 (0 : Fin 1) (0 : Fin 1)))
    (first _) (fun n hn => later n hn _ _)
  funext y
  rw [idx_one_one y]
  exact hsum.trans (sum_tileTotal (rows m c))

end Cert.KernelIdeal.HandValue

end
-- ==== Proof.KernelIdealValue.StoredValues.lean ====
/-
  The two small stored values read at an index, over the extended reals.

  The first point stores the zero word. Every point stores "what the result buffer held, plus the sum of the tile's 1024
  row totals": the sum over the rows is a reduction of the 1024 x 1 column of row totals along its long axis, which over
  the extended reals is the plain sum of its entries, carried through two reshapes that move no element.
-/
import proofs.«180643_j42288247997088_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.ValueIdx
open Cert.KernelIdeal Cert.KernelIdeal.Gen

/-- What the first point stores before it accumulates: the zero word, at the buffer's one index. -/
theorem pay1_apply (y : S1x1.Idx) : k0_pay1 (F := Ideal) y = Ideal.ofBits .f32 0x00000000#32 := rfl

/-- What every point stores: the value read back from the buffer plus the sum of the column of row totals. -/
theorem pay2_apply (v41 : FVec Ideal S1024x1 .f32) (v49 : Vec Ideal S1x1 .f32) (y : S1x1.Idx) :
    k0_pay2 (F := Ideal) v41 v49 y = v49 y + ∑ r : Fin 1024, v41 (ix2 r (0 : Fin 1)) := by
  unfold k0_pay2
  show shapeCast S1x1 v49 shapeCasts_S1x1_S1x1 y
      + shapeCast S1x1 (multiReduction (F := Ideal) .add [0] S1 v41 0x00000000#32 reduces_S1024x1_S1 (.inl rfl) rfl) shapeCasts_S1_S1x1 y = _
  rw [shapeCast_self]
  refine congrArg (v49 y + ·) ?_
  -- the 1 x 1 result of the reshape reads the reduction's one entry
  refine (shapeCast_apply _ shapeCasts_S1_S1x1 y (ix1 (0 : Fin 1)) ?_).trans ?_
  · rw [Shape.rowMajor_val_one, Shape.rowMajor_val_two]
    have h0 : (y 0).val < 1 := (y 0).isLt
    have h1 : (y 1).val < 1 := (y 1).isLt
    show 0 = (y 0).val * 1 + (y 1).val
    omega
  · -- which is the sum over the column's 1024 rows
    refine (Ideal.multiReduction_add_single v41 0x00000000#32 reduces_S1024x1_S1 _ _ (ix1 (0 : Fin 1))).trans ?_
    refine Finset.sum_congr rfl fun r _ => congrArg v41 (funext fun a => Fin.ext ?_)
    match a with
    | ⟨0, _⟩ => rfl
    | ⟨1, _⟩ => rfl

end Cert.KernelIdeal.HandValue

end
-- ==== Proof.KernelIdealValue.Last.lean ====
/-
  The accumulator after the last point, from the tile's row totals read at an index.

  What remains, once the first point's zero and every point's "read back + sum of the row totals" are read at the
  buffer's one index, is the tile's row total itself: row r of the tile at grid point (i, j) sums, over the 1024 rows c
  of the second block, the separation term of the array's rows 1024 i + r and 1024 j + c. That fact is taken here in the
  form "for blocks that are row stretches of one array X"; the two input windows' blocks are such stretches.
-/
import proofs.«180643_j42288247997088_1_alg».proof.Proof.KernelIdealValue.Acc
import proofs.«180643_j42288247997088_1_alg».proof.Proof.KernelIdealValue.StoredValues

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- From the row totals of a tile whose two blocks are the row stretches `R`, `C` of one array `X`. -/
theorem outsAt_last_of_tile (c : Dev nD)
    (htile : ∀ (i : grid0.Coords) (x0 x1 : Vec Ideal S1024x128 .f32) (X : Cert.PairSep.Rows) (R C : Fin 1024 → Fin 8192)
      (hR : ∀ r, (R r).val = 1024 * (i 0).val + r.val) (hC : ∀ c, (C c).val = 1024 * (i 1).val + c.val)
      (hx0 : ∀ r k, x0 (ix2 r k) = X (ix2 (R r) k)) (hx1 : ∀ c k, x1 (ix2 c k) = X (ix2 (C c) k)) (r : Fin 1024),
      k0_pay3 (F := Ideal) i x0 x1 (ix2 r (0 : Fin 1)) = ∑ c : Fin 1024, Cert.PairSep.term X (R r) (C c))
    (h63 : 63 < cfg0.N) :
    outsAt (F := Ideal) m c 63 h63 = fun _ => Cert.PairSep.total (rows m c) :=
  outsAt_last_of m c pay1_apply pay2_apply (fun t r => by
    obtain ⟨-, -, -, -, g0, g1⟩ := point_facts t
    exact htile (grid0.coords t) (iblk m c 0 t) (iblk m c 1 t) (rows m c)
      (fun r => rowOf (t.val / 8) (div8_lt t) r) (fun c' => rowOf (t.val % 8) (mod8_lt t) c')
      (fun r => by show 1024 * (t.val / 8) + r.val = 1024 * (grid0.coords t 0).val + r.val; rw [g0])
      (fun c' => by show 1024 * (t.val % 8) + c'.val = 1024 * (grid0.coords t 1).val + c'.val; rw [g1])
      (fun r k => iblk0_apply m c t r k) (fun c' k => iblk1_apply m c t c' k) r) h63

end Cert.KernelIdeal.HandValue

end
-- ==== Proof.KernelIdealValue.TileLayout.lean ====
/-
  Layout operations of a 1024 × 1024 tile read at an index, and the tile's diagonal test on 32-bit words.

  A sum along the lanes kept as a column ([1024, n] → [1024] → [1024, 1]) reads at row r as the sum over the n lanes of
  row r; a column broadcast along the lanes ([1024, 1] → [1024, 1024]) reads at (r, c) the column's entry r; a column
  turned into a row and broadcast down the rows ([1024, 1] → [1, 1024] → [1024, 1024]) reads at (r, c) the column's
  entry c; a sum down a column kept as a 1 × 1 array ([1024, 1] → [1] → [1, 1]) is the sum of the column's entries.
  The global row of row r of a tile in tile-row I is 1024 · I + r; with I below 8 and r below 1024 these numbers are
  below 8192, so two of them are equal as 32-bit words exactly when they are equal.
-/
import Idealize.ShloMosaic.PureOps.Ideal.Laws
import Idealize.ShloMosaic.Lib.Pipeline.Value
import Idealize.ShloMosaic.Lib.ValueIdx

noncomputable section

open scoped BigOperators

namespace Cert.TileLayout

open Idealize.ShloMosaic Idealize.ShloMosaic.ValueIdx

/-! ## Sums along an axis, the reduced axis kept with extent one -/

/-- The sum along 128 lanes, kept as a column, at row `r`. -/
theorem laneSum128_col (w : FVec Ideal ⟨2, ![1024, 128]⟩ .f32)
    (h : (⟨2, ![1024, 128]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (r : Fin 1024) (z : Fin 1) :
    shapeCast ⟨2, ![1024, 1]⟩ (multiReduction (F := Ideal) .add [1] ⟨1, ![1024]⟩ w 0x00000000#32 h hφ hacc) hc (ix2 r z)
      = ∑ k : Fin 128, w (ix2 r k) := by
  refine (shapeCast_apply _ hc (ix2 r z) (ix1 r) ?_).trans ?_
  · rw [Shape.rowMajor_val_one, Shape.rowMajor_val_two]
    have hz := z.isLt
    show r.val = r.val * 1 + z.val
    omega
  · refine (Ideal.multiReduction_add_single w 0x00000000#32 h hφ hacc (ix1 r)).trans ?_
    refine Finset.sum_congr rfl fun k _ => ?_
    exact congrArg w (funext fun a => Fin.ext (by match a with | ⟨0, _⟩ => rfl | ⟨1, _⟩ => rfl))

/-- The sum along 1024 lanes, kept as a column, at row `r`. -/
theorem laneSum1024_col (w : FVec Ideal ⟨2, ![1024, 1024]⟩ .f32)
    (h : (⟨2, ![1024, 1024]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (r : Fin 1024) (z : Fin 1) :
    shapeCast ⟨2, ![1024, 1]⟩ (multiReduction (F := Ideal) .add [1] ⟨1, ![1024]⟩ w 0x00000000#32 h hφ hacc) hc (ix2 r z)
      = ∑ c : Fin 1024, w (ix2 r c) := by
  refine (shapeCast_apply _ hc (ix2 r z) (ix1 r) ?_).trans ?_
  · rw [Shape.rowMajor_val_one, Shape.rowMajor_val_two]
    have hz := z.isLt
    show r.val = r.val * 1 + z.val
    omega
  · refine (Ideal.multiReduction_add_single w 0x00000000#32 h hφ hacc (ix1 r)).trans ?_
    refine Finset.sum_congr rfl fun k _ => ?_
    exact congrArg w (funext fun a => Fin.ext (by match a with | ⟨0, _⟩ => rfl | ⟨1, _⟩ => rfl))

/-- The sum down a column of 1024 entries, kept as a 1 × 1 array. -/
theorem colSum_1x1 (w : FVec Ideal ⟨2, ![1024, 1]⟩ .f32)
    (h : (⟨2, ![1024, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (y z : Fin 1) :
    shapeCast ⟨2, ![1, 1]⟩ (multiReduction (F := Ideal) .add [0] ⟨1, ![1]⟩ w 0x00000000#32 h hφ hacc) hc (ix2 y z)
      = ∑ r : Fin 1024, w (ix2 r 0) := by
  refine (shapeCast_apply _ hc (ix2 y z) (ix1 0) ?_).trans ?_
  · rw [Shape.rowMajor_val_one, Shape.rowMajor_val_two]
    have hy := y.isLt
    have hz := z.isLt
    show 0 = y.val * 1 + z.val
    omega
  · refine (Ideal.multiReduction_add_single w 0x00000000#32 h hφ hacc (ix1 0)).trans ?_
    refine Finset.sum_congr rfl fun k _ => ?_
    exact congrArg w (funext fun a => Fin.ext (by match a with | ⟨0, _⟩ => rfl | ⟨1, _⟩ => rfl))

/-! ## Broadcasts and transposes -/

variable {α : Type}

/-- A column broadcast along the lanes reads, at (r, c), its entry r. -/
theorem bcast_col (col : (⟨2, ![1024, 1]⟩ : Shape).Idx → α)
    (h : (⟨2, ![1024, 1]⟩ : Shape).Broadcasts ⟨2, ![1024, 1024]⟩) (r c : Fin 1024) :
    broadcastTo ⟨2, ![1024, 1024]⟩ col h (ix2 r c) = col (ix2 r 0) := by
  refine broadcastTo_apply col h (ix2 r c) (ix2 r 0) fun ax => ?_
  match ax with
  | ⟨0, _⟩ => show r.val = if (1024 : Nat) = 1 then 0 else r.val; rw [if_neg (by decide)]
  | ⟨1, _⟩ => show 0 = if (1 : Nat) = 1 then 0 else c.val; rw [if_pos rfl]

/-- A column turned into a row reads, at (0, c), the column's entry c. -/
theorem transpose_col (col : (⟨2, ![1024, 1]⟩ : Shape).Idx → α)
    (h : (⟨2, ![1024, 1]⟩ : Shape).Transposes [1, 0] ⟨2, ![1, 1024]⟩) (z : Fin 1) (c : Fin 1024) :
    transpose ⟨2, ![1, 1024]⟩ [1, 0] col h (ix2 z c) = col (ix2 c z) :=
  transpose_apply [1, 0] col h (ix2 z c) (ix2 c z) (fun b => match b with
    | ⟨0, _⟩ => rfl
    | ⟨1, _⟩ => rfl)

/-- That row broadcast down the rows reads, at (r, c), the column's entry c. -/
theorem bcast_row_of_col (col : (⟨2, ![1024, 1]⟩ : Shape).Idx → α)
    (ht : (⟨2, ![1024, 1]⟩ : Shape).Transposes [1, 0] ⟨2, ![1, 1024]⟩)
    (h : (⟨2, ![1, 1024]⟩ : Shape).Broadcasts ⟨2, ![1024, 1024]⟩) (r c : Fin 1024) :
    broadcastTo ⟨2, ![1024, 1024]⟩ (transpose ⟨2, ![1, 1024]⟩ [1, 0] col ht) h (ix2 r c) = col (ix2 c 0) := by
  refine (broadcastTo_apply _ h (ix2 r c) (ix2 (0 : Fin 1) c) fun ax => ?_).trans (transpose_col col ht 0 c)
  match ax with
  | ⟨0, _⟩ => show 0 = if (1 : Nat) = 1 then 0 else r.val; rw [if_pos rfl]
  | ⟨1, _⟩ => show c.val = if (1024 : Nat) = 1 then 0 else c.val; rw [if_neg (by decide)]

/-- A 1024 × 128 block transposed reads, at (k, c), the block at (c, k). -/
theorem transpose_block (x : (⟨2, ![1024, 128]⟩ : Shape).Idx → α)
    (h : (⟨2, ![1024, 128]⟩ : Shape).Transposes [1, 0] ⟨2, ![128, 1024]⟩) (k : Fin 128) (c : Fin 1024) :
    transpose ⟨2, ![128, 1024]⟩ [1, 0] x h (ix2 k c) = x (ix2 c k) :=
  transpose_apply [1, 0] x h (ix2 k c) (ix2 c k) (fun b => match b with
    | ⟨0, _⟩ => rfl
    | ⟨1, _⟩ => rfl)

/-! ## The diagonal test -/

/-- The global rows 1024 · I + r and 1024 · J + c (I, J below 8; r, c below 1024), formed as 32-bit words the way a
    tile forms them (coordinate inside the tile plus tile index times 1024), are equal words exactly when the numbers
    are equal. -/
theorem tile_word_eq_iff (I J : Fin 8) (r c : Fin 1024) :
    IntOp.addi (BitVec.ofNat 32 r.val) (Scalar.muli (BitVec.ofNat 32 I.val) 1024#32)
        = IntOp.addi (BitVec.ofNat 32 c.val) (Scalar.muli (BitVec.ofNat 32 J.val) 1024#32)
      ↔ 1024 * I.val + r.val = 1024 * J.val + c.val := by
  have hI := I.isLt
  have hJ := J.isLt
  have hr := r.isLt
  have hc := c.isLt
  have key : ∀ (K : Fin 8) (x : Fin 1024),
      (IntOp.addi (BitVec.ofNat 32 x.val) (Scalar.muli (BitVec.ofNat 32 K.val) 1024#32)).toNat = 1024 * K.val + x.val := by
    intro K x
    have hK := K.isLt
    have hx := x.isLt
    unfold IntOp.addi Scalar.muli IntOp.muli
    rw [BitVec.toNat_add, BitVec.toNat_mul, BitVec.toNat_ofNat, BitVec.toNat_ofNat, BitVec.toNat_ofNat]
    omega
  constructor
  · intro h
    have h' := congrArg BitVec.toNat h
    rwa [key, key] at h'
  · intro h
    apply BitVec.eq_of_toNat_eq
    rw [key, key, h]

end Cert.TileLayout

end
-- ==== Proof.KernelIdealValue.Payload.lean ====
/-
  The idealized kernel's payloads, read at an index.

  One grid point (i₀, i₁) loads two 1024 × 128 blocks of the rows array X: rows 1024·i₀ … 1024·i₀ + 1023 and rows
  1024·i₁ … 1024·i₁ + 1023. From them the body forms, for r and c below 1024, the squared lengths of the two rows, their
  inner product (a format change is the identity on extended reals, and a product accumulated into zero is the sum of
  the products), the squared distance, the diagonal test on the global row numbers, and the masked exponential: that is
  the specification's term at the global pair (1024·i₀ + r, 1024·i₁ + c). Summed along the lanes it is the tile's
  column of row totals.
-/
import proofs.«180643_j42288247997088_1_alg».proof.Proof.Gen.KernelIdeal.Skeleton
import proofs.«180643_j42288247997088_1_alg».proof.Proof.PairSepSpec
import proofs.«180643_j42288247997088_1_alg».proof.Proof.KernelIdealValue.TileLayout

noncomputable section

open scoped BigOperators

namespace Cert.KernelIdeal.TilePayload

open Cert.KernelIdeal Cert.KernelIdeal.Gen Idealize.ShloMosaic Idealize.ShloMosaic.ValueIdx Cert.TileLayout

/-- The tile's diagonal test at (r, c) holds exactly when the two global rows coincide. -/
theorem mask_iff (i : grid0.Coords) (h0 : S1024x1024.Iotas .tc 32 [0]) (h1 : S1024x1024.Iotas .tc 32 [1])
    (R C : Fin 1024 → Fin 8192) (hR : ∀ r, (R r).val = 1024 * (i 0).val + r.val)
    (hC : ∀ c, (C c).val = 1024 * (i 1).val + c.val) (r c : Fin 1024) :
    IntOp.cmpi .eq
        (IntOp.addi (iota .tc S1024x1024 32 [0] h0 (ix2 r c)) (Scalar.muli (BitVec.ofNat 32 (i 0).val) 1024#32))
        (IntOp.addi (iota .tc S1024x1024 32 [1] h1 (ix2 r c)) (Scalar.muli (BitVec.ofNat 32 (i 1).val) 1024#32)) = 1#1
      ↔ R r = C c := by
  rw [iota_single_apply, iota_single_apply]
  exact IntOp.cmpi_eq.trans ((tile_word_eq_iff (i 0) (i 1) r c).trans
    ⟨fun h => Fin.ext (by rw [hR, hC]; exact h), fun h => by have h' := congrArg Fin.val h; rwa [hR, hC] at h'⟩)

theorem cross_lhs_0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem cross_lhs_1 (j : S1024x1024.Idx) (q : dot_S1024x128_S128x1024_S1024x1024_1_0_0_1_n_n.contr.Idx) :
    (dot_S1024x128_S128x1024_S1024x1024_1_0_0_1_n_n.lhsIdx j q 1).val = (q ⟨0, by decide⟩).val :=
  dot_S1024x128_S128x1024_S1024x1024_1_0_0_1_n_n.lhsIdx_val_of_single rfl j q
theorem cross_rhs_0 (j : S1024x1024.Idx) (q : dot_S1024x128_S128x1024_S1024x1024_1_0_0_1_n_n.contr.Idx) :
    (dot_S1024x128_S128x1024_S1024x1024_1_0_0_1_n_n.rhsIdx j q 0).val = (q ⟨0, by decide⟩).val :=
  dot_S1024x128_S128x1024_S1024x1024_1_0_0_1_n_n.rhsIdx_val_of_single rfl j q
theorem cross_rhs_1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of a block with a transposed block, accumulated into zero, at (r, c): the sum over the 128 lanes. -/
theorem cross_apply (a : FVec Ideal S1024x128 .bf16) (b : FVec Ideal S128x1024 .bf16) (r c : Fin 1024) :
    matmul dot_S1024x128_S128x1024_S1024x1024_1_0_0_1_n_n none a b (constant (F := Ideal) S1024x1024 .f32 0x00000000#32) (ix2 r c)
      = ∑ k : Fin 128, a (ix2 r k) * b (ix2 k c) := by
  refine (Ideal.matmul_constant_zero_apply dot_S1024x128_S128x1024_S1024x1024_1_0_0_1_n_n none a b (ix2 r c)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r c)
      ((ValueIdx.contrEquiv1 dot_S1024x128_S128x1024_S1024x1024_1_0_0_1_n_n 128 rfl rfl).symm k) = ix2 r k :=
    funext fun ax => Fin.ext (by
      match ax with
      | ⟨0, _⟩ => exact cross_lhs_0 _ _
      | ⟨1, _⟩ => exact (cross_lhs_1 _ _).trans hk)
  have er : dot_S1024x128_S128x1024_S1024x1024_1_0_0_1_n_n.rhsIdx (ix2 r c)
      ((ValueIdx.contrEquiv1 dot_S1024x128_S128x1024_S1024x1024_1_0_0_1_n_n 128 rfl rfl).symm k) = ix2 k c :=
    funext fun ax => Fin.ext (by
      match ax with
      | ⟨0, _⟩ => exact (cross_rhs_0 _ _).trans hk
      | ⟨1, _⟩ => exact cross_rhs_1 _ _)
  rw [el, er]

/-- A select on a one-bit word that decides `p` is the `if` on `p`. -/
theorem select_eq_ite {α : Type} (m : BitVec 1) (p : Prop) [Decidable p] (hm : m = 1#1 ↔ p) (x y : α) :
    Scalar.select m x y = if p then x else y :=
  if_congr hm rfl rfl

/-- One entry of the tile from its parts: the diagonal test `m` decides `p`, and `a`, `b`, `cr` are the two squared
    lengths and the inner product. -/
theorem entry_eq (m : BitVec 1) (p : Prop) [Decidable p] (hm : m = 1#1 ↔ p) (a b cr A B C : EReal)
    (ha : a = A) (hb : b = B) (hc : cr = C) :
    Scalar.select m (Ideal.ofBits .f32 0x00000000#32)
        (FloatOps.exp (F := Ideal) (φ := .f32) (FloatOps.mulf (F := Ideal) (φ := .f32) (Ideal.ofBits .f32 0xBECCCCCD#32)
          (FloatOps.sqrt (F := Ideal) (φ := .f32) (FloatOps.maximumf (F := Ideal) (φ := .f32)
            (Scalar.select m (Ideal.ofBits .f32 0x3F800000#32)
              (FloatOps.subf (F := Ideal) (φ := .f32) (FloatOps.addf (F := Ideal) (φ := .f32) a b)
                (FloatOps.mulf (F := Ideal) (φ := .f32) (Ideal.ofBits .f32 0x40000000#32) cr)))
            (Ideal.ofBits .f32 0x00000000#32)))))
      = if p then Ideal.ofBits .f32 0x00000000#32
        else Ideal.exp (Ideal.ofBits .f32 0xBECCCCCD#32 *
          Ideal.sqrt (max (if p then Ideal.ofBits .f32 0x3F800000#32
                           else (A + B) - Ideal.ofBits .f32 0x40000000#32 * C)
                          (Ideal.ofBits .f32 0x00000000#32))) := by
  subst ha hb hc
  rw [select_eq_ite m p hm, select_eq_ite m p hm]
  rfl

/-- THE TILE'S ROW TOTALS. At the grid point `i`, with the two loaded blocks the rows 1024·i₀ … and 1024·i₁ … of `X`
    (`R r` and `C c` name the global rows 1024·i₀ + r and 1024·i₁ + c), entry `r` of the column the body hands on is the
    sum over the tile's 1024 columns of the specification's term at the global pair. -/
theorem pay3_apply_at (i : grid0.Coords) (x0 x1 : Vec Ideal S1024x128 .f32) (X : Cert.PairSep.Rows)
    (R C : Fin 1024 → Fin 8192) (hR : ∀ r, (R r).val = 1024 * (i 0).val + r.val)
    (hC : ∀ c, (C c).val = 1024 * (i 1).val + c.val)
    (hx0 : ∀ (r : Fin 1024) (k : Fin 128), x0 (ix2 r k) = X (ix2 (R r) k))
    (hx1 : ∀ (c : Fin 1024) (k : Fin 128), x1 (ix2 c k) = X (ix2 (C c) k))
    (r : Fin 1024) (z : Fin 1) :
    k0_pay3 (F := Ideal) i x0 x1 (ix2 r z) = ∑ c : Fin 1024, Cert.PairSep.term X (R r) (C c) := by
  have e0 : ∀ (h : S1024x128.ShapeCasts S1024x128) (r : Fin 1024) (k : Fin 128),
      shapeCast S1024x128 x0 h (ix2 r k) = X (ix2 (R r) k) := fun h r k => by
    rw [shapeCast_self]; exact hx0 r k
  have e1 : ∀ (h : S1024x128.ShapeCasts S1024x128) (c : Fin 1024) (k : Fin 128),
      shapeCast S1024x128 x1 h (ix2 c k) = X (ix2 (C c) k) := fun h c k => by
    rw [shapeCast_self]; exact hx1 c k
  unfold k0_pay3
  refine (laneSum1024_col _ _ _ _ _ r z).trans ?_
  refine Finset.sum_congr rfl fun c _ => ?_
  unfold Cert.PairSep.term
  refine entry_eq _ _ (mask_iff i _ _ R C hR hC r c) _ _ _ _ _ _ ?_ ?_ ?_
  · refine (bcast_col _ _ r c).trans ((laneSum128_col _ _ _ _ _ r 0).trans ?_)
    unfold Cert.PairSep.sq
    refine Finset.sum_congr rfl fun k _ => ?_
    show shapeCast S1024x128 x0 _ (ix2 r k) * shapeCast S1024x128 x0 _ (ix2 r k) = _
    rw [e0]
  · refine (bcast_row_of_col _ _ _ r c).trans ((laneSum128_col _ _ _ _ _ c 0).trans ?_)
    unfold Cert.PairSep.sq
    refine Finset.sum_congr rfl fun k _ => ?_
    show shapeCast S1024x128 x1 _ (ix2 c k) * shapeCast S1024x128 x1 _ (ix2 c k) = _
    rw [e1]
  · refine (cross_apply _ _ r c).trans ?_
    unfold Cert.PairSep.dot
    refine Finset.sum_congr rfl fun k _ => ?_
    refine congrArg₂ (· * ·) ?_ ?_
    · show shapeCast S1024x128 x0 _ (ix2 r k) = _
      exact e0 _ r k
    · refine (transpose_block _ _ k c).trans ?_
      show shapeCast S1024x128 x1 _ (ix2 c k) = _
      exact e1 _ c k

/-- The same at the column's one lane index 0. -/
theorem pay3_apply (i : grid0.Coords) (x0 x1 : Vec Ideal S1024x128 .f32) (X : Cert.PairSep.Rows)
    (R C : Fin 1024 → Fin 8192) (hR : ∀ r, (R r).val = 1024 * (i 0).val + r.val)
    (hC : ∀ c, (C c).val = 1024 * (i 1).val + c.val)
    (hx0 : ∀ (r : Fin 1024) (k : Fin 128), x0 (ix2 r k) = X (ix2 (R r) k))
    (hx1 : ∀ (c : Fin 1024) (k : Fin 128), x1 (ix2 c k) = X (ix2 (C c) k))
    (r : Fin 1024) :
    k0_pay3 (F := Ideal) i x0 x1 (ix2 r (0 : Fin 1)) = ∑ c : Fin 1024, Cert.PairSep.term X (R r) (C c) :=
  pay3_apply_at i x0 x1 X R C hR hC hx0 hx1 r 0

end Cert.KernelIdeal.TilePayload

end
-- ==== Proof.KernelIdealValue.Final.lean ====
/-
  WHAT THE KERNEL COMPUTES: after the last of the 64 grid points the 1 x 1 result buffer holds the pairwise-separation
  total of the 8192 x 128 array both input windows read — the sum, over all ordered pairs (R, C) of its rows, of
  0 on the diagonal and exp (w * sqrt (max (|R|^2 + |C|^2 - 2 R.C) 0)) off it.

  Each grid point adds its tile's total (the pairs of one 1024-row stretch with another) to the buffer, the first point
  starting from the zero word; the 64 tiles cover every ordered pair of rows exactly once.
-/
import proofs.«180643_j42288247997088_1_alg».proof.Proof.KernelIdealValue.Last
import proofs.«180643_j42288247997088_1_alg».proof.Proof.KernelIdealValue.Payload

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- After point 63 the result buffer holds the total over all ordered pairs of rows of the array. -/
theorem outsAt_last (c : Dev nD) (h63 : 63 < cfg0.N) :
    outsAt (F := Ideal) m c 63 h63 = fun _ => Cert.PairSep.total (rows m c) :=
  outsAt_last_of_tile m c
    (fun i x0 x1 X R C hR hC hx0 hx1 r => Cert.KernelIdeal.TilePayload.pay3_apply i x0 x1 X R C hR hC hx0 hx1 r) h63

end Cert.KernelIdeal.HandValue

end
-- ==== Proof.ReferenceIsPairSep.lean ====
/-
  The reference program computes the pairwise separation sum.

  Read one element at a time, the reference forms the array of rows X (a transpose and a reshape of its argument), then
  for every ordered pair (r, c) of rows the squared lengths sq r and sq c (each a sum started from the literal 0, which
  adds nothing), the inner product dot r c, the squared distance (sq r + sq c) − 2 · dot r c, masks the diagonal r = c
  (a comparison of the two coordinates as 32-bit integers, which is the comparison of the coordinates themselves since
  both are below 8192), and sums exp (w · √(max … 0)) over all pairs, again starting from the literal 0. That is
  `Cert.PairSep.total X`.
-/
import proofs.«180643_j42288247997088_1_alg».proof.Proof.Gen.ReferenceIdeal.Read
import proofs.«180643_j42288247997088_1_alg».proof.Proof.PairSepSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.PairSep

/-! ## The composed index functions at a pair (r, c) -/

theorem idx_sq_elt (r : Fin 8192) (k : Fin 128) : idx_main_v3 (ix1 r) k = ix2 r k :=
  funext fun a => Fin.ext (by match a with | ⟨0, _⟩ => rfl | ⟨1, _⟩ => rfl)

theorem idx_row_of_pair (r c : Fin 8192) : idx_main_v4 (idx_main_v6 (ix2 r c)) = ix1 r :=
  funext fun a => Fin.ext (by match a with | ⟨0, _⟩ => rfl)

theorem idx_col_of_pair (r c : Fin 8192) : idx_main_v5 (idx_main_v7 (ix2 r c)) = ix1 c :=
  funext fun a => Fin.ext (by match a with | ⟨0, _⟩ => rfl)

theorem idx_dot_left (r c : Fin 8192) (k : Fin 128) : lidx_main_v10 (ix2 r c) k = ix2 r k :=
  funext fun a => Fin.ext (by match a with | ⟨0, _⟩ => rfl | ⟨1, _⟩ => rfl)

theorem idx_dot_right (r c : Fin 8192) (k : Fin 128) : idx_main_v9 (ridx_main_v10 (ix2 r c) k) = ix2 c k :=
  funext fun a => Fin.ext (by match a with | ⟨0, _⟩ => rfl | ⟨1, _⟩ => rfl)

/-! ## The stages at a pair -/

variable (x0 : (⟨S64x8192x2, .f32⟩ : BufTy).Contents (Elt Ideal))

/-- The row sums of squares are `sq`: the sum's initial value is the literal 0. -/
theorem sq_stage (r : Fin 8192) :
    val_main_v3 (F := Ideal) x0 (ix1 r) = PairSep.sq (val_main_v1 (F := Ideal) x0) r := by
  rw [val_main_v3_apply, val_main_cst_apply, Ideal.ofBits_def, Ideal.ofBits_zero_f32, zero_add]
  unfold PairSep.sq
  refine Finset.sum_congr rfl fun k _ => ?_
  rw [val_main_v2_apply, idx_sq_elt, Ideal.mulf_def]

/-- The product of the rows array with its transpose is `dot`. -/
theorem dot_stage (r c : Fin 8192) :
    val_main_v10 (F := Ideal) x0 (ix2 r c) = PairSep.dot (val_main_v1 (F := Ideal) x0) r c := by
  rw [val_main_v10_apply]
  unfold PairSep.dot
  refine Finset.sum_congr rfl fun k _ => ?_
  rw [val_main_v9_apply, idx_dot_left, idx_dot_right]

/-- Two coordinates below 8192 are equal as 32-bit integers exactly when they are equal. -/
theorem word_eq_iff (r c : Fin 8192) :
    IntOp.addi (BitVec.ofNat 32 r.val) 0#32 = BitVec.ofNat 32 c.val ↔ r = c := by
  have hr : r.val < 8192 := r.isLt
  have hc : c.val < 8192 := c.isLt
  unfold IntOp.addi
  rw [BitVec.add_zero]
  constructor
  · intro h
    have h' := congrArg BitVec.toNat h
    rw [BitVec.toNat_ofNat, BitVec.toNat_ofNat, Nat.mod_eq_of_lt (by omega), Nat.mod_eq_of_lt (by omega)] at h'
    exact Fin.ext h'
  · intro h; rw [h]

/-- A select on the diagonal mask at the pair (r, c) is the `if` on r = c. -/
theorem select_mask {α : Type} (r c : Fin 8192) (a b : α) :
    Scalar.select (val_main_v18 (F := Ideal) (ix2 r c)) a b = if r = c then a else b := by
  rw [val_main_v18_apply, val_main_v17_apply, val_main_v14_apply, val_main_v16_apply, val_main_c_apply, val_main_v15_apply]
  show (if IntOp.cmpi .eq (IntOp.addi (BitVec.ofNat 32 r.val) 0#32) (BitVec.ofNat 32 c.val) = 1 then a else b) = _
  exact if_congr (IntOp.cmpi_eq.trans (word_eq_iff r c)) rfl rfl

/-- The summand of the last sum at the pair (r, c) is `term`. -/
theorem term_stage (r c : Fin 8192) :
    val_main_v26 (F := Ideal) x0 (ix2 r c) = PairSep.term (val_main_v1 (F := Ideal) x0) r c := by
  rw [val_main_v26_apply, val_main_v25_apply, val_main_v24_apply, val_main_v23_apply, val_main_cst_3_apply,
    val_main_v22_apply, val_main_v21_apply, val_main_v20_apply, val_main_cst_2_apply, val_main_v19_apply,
    val_main_call0_v1_apply, val_main_call0_v0_apply, val_main_cst_1_apply, val_main_v13_apply, val_main_v8_apply,
    val_main_v6_apply, val_main_v4_apply, val_main_v7_apply, val_main_v5_apply, val_main_v12_apply, val_main_v11_apply,
    val_main_cst_0_apply, val_main_call1_v1_apply, val_main_call1_v0_apply, val_main_cst_4_apply,
    idx_row_of_pair, idx_col_of_pair, sq_stage, sq_stage, dot_stage, select_mask, select_mask]
  simp only [Ideal.ofBits_def, Ideal.addf_def, Ideal.subf_def, Ideal.mulf_def, Ideal.maximumf_def,
    Ideal.hostUnary_sqrt_def, Ideal.hostUnary_exp_def]
  rfl

/-- THE REFERENCE'S RESULT IS THE SPECIFICATION of the rows array its first two operations form. -/
theorem result_eq_total :
    val_main_v27 (F := Ideal) x0 = fun _ => Cert.PairSep.total (val_main_v1 (F := Ideal) x0) := by
  funext i
  rw [val_main_v27_apply, val_main_cst_5_apply, Ideal.ofBits_def, Ideal.ofBits_zero_f32, zero_add,
    sum_idx2 (n0 := 8192) (n1 := 8192)]
  unfold PairSep.total
  exact Finset.sum_congr rfl fun r _ => Finset.sum_congr rfl fun c _ => term_stage x0 r c

end Cert.ReferenceIdeal.RefValue

end
-- ==== Proof.lean ====
/-
  The pairwise keypoint-separation loss: a tiled kernel against its plain reference, equal on the extended reals.

  Both programs first lay the argument out as an 8192 x 128 array X (one row per keypoint). With sq r the sum of the
  squares of row r and dot r c the inner product of rows r and c, the loss is the sum over all ordered pairs r ≠ c of
  exp (w · sqrt (max ((sq r + sq c) − 2 · dot r c, 0))), the diagonal contributing zero. The reference forms the whole
  8192 x 8192 table and sums it. The kernel walks an 8 x 8 grid of 1024 x 1024 tiles; at the tile (i, j) it reads rows
  1024 i .. and rows 1024 j .. of the SAME array X, forms that tile of the table (the inner products by a matrix product
  of the rows cast to a shorter float format, which at the ideal instance is the identity), sums it by rows and then
  down the rows, and adds the tile's total to a 1 x 1 accumulator that the first tile sets to zero; the accumulator is
  written back once, after the last tile.

  At the ideal instance every float is an extended real and every operation exact, so the two results are the same sum
  taken in two groupings, and addition of extended reals is commutative and associative without exception: the claim
  needs no finiteness. What is proved where:
    * the frames of the two kernel programs (word-level and idealized): each runs to the end, nothing faulting, its
      argument unchanged - the region entered with the shared array's share dealt in halves to its two windows, the
      body run whole in its two cases (first tile / later tile), the accumulator followed through the 64 points;
    * the idealization rewrote nothing, so that conjunct is trivial;
    * the kernel's result is the reshape of the accumulator after the last tile, which is the sum over the tiles of
      the tiles' totals, which is the sum over all pairs (a bijection between (tile, row in tile, column in tile) and
      (row, column)); the reference's result, read operation by operation, is that same sum of that same term of X.
-/
import proofs.«180643_j42288247997088_1_alg».proof.Defs
import proofs.«180643_j42288247997088_1_alg».proof.Proof.Gen.Kernel
import proofs.«180643_j42288247997088_1_alg».proof.Proof.Gen.KernelIdeal
import proofs.«180643_j42288247997088_1_alg».proof.Proof.Gen.ReferenceIdeal
import proofs.«180643_j42288247997088_1_alg».proof.Proof.Gen.ReferenceIdeal.Run
import proofs.«180643_j42288247997088_1_alg».proof.Proof.Gen.ReferenceIdeal.Read
import proofs.«180643_j42288247997088_1_alg».proof.Proof.Gen.Pre_finite_inputs
import proofs.«180643_j42288247997088_1_alg».proof.Proof.KernelFrame.Final
import proofs.«180643_j42288247997088_1_alg».proof.Proof.KernelIdealFrame.Final
import proofs.«180643_j42288247997088_1_alg».proof.Proof.KernelIdealValue.Final
import proofs.«180643_j42288247997088_1_alg».proof.Proof.ReferenceIsPairSep
import Idealize.ShloMosaic.Adequacy
import Idealize.ShloMosaic.Init

noncomputable section

namespace Cert.Proof

open Idealize.ShloMosaic Idealize.SL.Sem

/-- The array of rows the kernel's region reads is the one the reference forms: the same transpose and the same reshape of
    the same argument. -/
theorem rows_eq (m : (ℓ : Loc Cert.KernelIdeal.nD Cert.KernelIdeal.τ Cert.KernelIdeal.sig) → Buf (Elt Ideal) ℓ) (c : Dev Cert.KernelIdeal.nD) :
    Cert.KernelIdeal.HandValue.rows m c
      = Cert.ReferenceIdeal.Read.val_main_v1 (F := Ideal) (m ((c.tc : Thread Cert.KernelIdeal.nD Cert.KernelIdeal.τ).loc Cert.KernelIdeal.main_arg0)) := by
  show StableHlo.after Cert.KernelIdeal.Gen.hostOps0 (Cert.KernelIdeal.Hand.W0 m c) (Proc.devRef .tc Cert.KernelIdeal.main_v1) = _
  after_results
  rfl

theorem frame_k : Cert.frame_Kernel := fun m ρ _ => Cert.Kernel.Hand.frame m ρ
theorem frame_ki : Cert.frame_KernelIdeal := fun m ρ _ => Cert.KernelIdeal.Hand.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the sum, over all pairs of rows of the array they both form, of the pair's term: the kernel's
    accumulator after the last tile is that sum grouped by tiles, the reference's reduction is that sum outright. -/
theorem algebraic : Cert.algebraic_KernelIdeal_ReferenceIdeal := by
  intro m ρ m' ρ' _ hagree
  refine ⟨fun c => fun _ => Cert.PairSep.total (Cert.KernelIdeal.HandValue.rows m c), ?_, ?_⟩
  · refine (θ_run Cert.KernelIdeal.defs _ _).mono (fun _ h c => ⟨(h c).1.trans ?_, (h c).2⟩)
      (Cert.KernelIdeal.Hand.run_value (F := Ideal) m ρ)
    rw [show Cert.KernelIdeal.Hand.result (F := Ideal) m c = fun _ => Cert.PairSep.total (Cert.KernelIdeal.HandValue.rows m c) from
      Cert.KernelIdeal.HandValue.outsAt_last m c _]
    rfl
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, Cert.ReferenceIdeal.RefValue.result_eq_total, hagree c]
    exact congrArg (fun X => fun _ => Cert.PairSep.total X) (rows_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
